-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x64 : Shape := ⟨2, ![50000, 64]⟩
abbrev S1600000 : Shape := ⟨1, ![1600000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg9 : FVec F S64 .f32) (main_arg10 : FVec F S64x1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S64 .f32) (main_arg10 : FVec F S64x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S50000x3 .f32) (main_arg1 : FVec F S50000x64 .f32) (main_arg2 : IVec S1600000 32) (main_arg3 : IVec S1600000 32) (main_arg4 : FVec F S129x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S129x64 .f32 := Host.absf main_arg4
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S50000x3 : Shape := ⟨2, ![50000, 3]⟩
abbrev S50000x64 : Shape := ⟨2, ![50000, 64]⟩
abbrev S1600000 : Shape := ⟨1, ![1600000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S_ : Shape := ⟨0, ![]⟩
abbrev S1600000x1 : Shape := ⟨2, ![1600000, 1]⟩
abbrev S1600000x3 : Shape := ⟨2, ![1600000, 3]⟩
abbrev S1600000x64 : Shape := ⟨2, ![1600000, 64]⟩
abbrev S1x64 : Shape := ⟨2, ![1, 64]⟩
abbrev S3200x3 : Shape := ⟨2, ![3200, 3]⟩
abbrev S3200x64 : Shape := ⟨2, ![3200, 64]⟩
abbrev S3200x1 : Shape := ⟨2, ![3200, 1]⟩
abbrev S3200 : Shape := ⟨1, ![3200]⟩

abbrev nBuf : Space → Nat
  | .hbm => 62
  | .vmem => 23
  | .smem => 0
  | _ => 0

abbrev bufTy : (tb : Table) → Fin (tcTables nBuf tb) → BufTy
  | .hbm, ⟨0, _⟩ => ⟨S50000x3, .f32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x3, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x3, .f32⟩
  | .hbm, ⟨29, _⟩ => ⟨S50000x64, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .bf16⟩
  | .hbm, ⟨48, _⟩ => ⟨S64x64, .f32⟩
  | .hbm, ⟨49, _⟩ => ⟨S64x64, .bf16⟩
  | .hbm, ⟨50, _⟩ => ⟨S64x64, .f32⟩
  | .hbm, ⟨51, _⟩ => ⟨S64x64, .bf16⟩
  | .hbm, ⟨52, _⟩ => ⟨S1x64, .f32⟩
  | .hbm, ⟨53, _⟩ => ⟨S1x64, .f32⟩
  | .hbm, ⟨54, _⟩ => ⟨S64x64, .bf16⟩
  | .hbm, ⟨55, _⟩ => ⟨S1x64, .f32⟩
  | .hbm, ⟨56, _⟩ => ⟨S64x64, .bf16⟩
  | .hbm, ⟨57, _⟩ => ⟨S1x64, .f32⟩
  | .hbm, ⟨58, _⟩ => ⟨S64x1, .bf16⟩
  | .hbm, ⟨59, _⟩ => ⟨S1600000x1, .f32⟩
  | .hbm, ⟨60, _⟩ => ⟨S1600000x3, .f32⟩
  | .hbm, ⟨61, _⟩ => ⟨S1600000x64, .f32⟩
  | .local _ .vmem, ⟨0, _⟩ => ⟨S3200x3, .f32⟩
  | .local _ .vmem, ⟨1, _⟩ => ⟨S3200x3, .f32⟩
  | .local _ .vmem, ⟨2, _⟩ => ⟨S3200x3, .f32⟩
  | .local _ .vmem, ⟨3, _⟩ => ⟨S3200x3, .f32⟩
  | .local _ .vmem, ⟨4, _⟩ => ⟨S3200x64, .bf16⟩
  | .local _ .vmem, ⟨5, _⟩ => ⟨S3200x64, .bf16⟩
  | .local _ .vmem, ⟨6, _⟩ => ⟨S3200x64, .bf16⟩
  | .local _ .vmem, ⟨7, _⟩ => ⟨S3200x64, .bf16⟩
  | .local _ .vmem, ⟨8, _⟩ => ⟨S64x64, .bf16⟩
  | .local _ .vmem, ⟨9, _⟩ => ⟨S64x64, .bf16⟩
  | .local _ .vmem, ⟨10, _⟩ => ⟨S1x64, .f32⟩
  | .local _ .vmem, ⟨11, _⟩ => ⟨S1x64, .f32⟩
  | .local _ .vmem, ⟨12, _⟩ => ⟨S64x64, .bf16⟩
  | .local _ .vmem, ⟨13, _⟩ => ⟨S1x64, .f32⟩
  | .local _ .vmem, ⟨14, _⟩ => ⟨S64x64, .bf16⟩
  | .local _ .vmem, ⟨15, _⟩ => ⟨S1x64, .f32⟩
  | .local _ .vmem, ⟨16, _⟩ => ⟨S64x1, .bf16⟩
  | .local _ .vmem, ⟨17, _⟩ => ⟨S3200x1, .f32⟩
  | .local _ .vmem, ⟨18, _⟩ => ⟨S3200x1, .f32⟩
  | .local _ .vmem, ⟨19, _⟩ => ⟨S3200x3, .f32⟩
  | .local _ .vmem, ⟨20, _⟩ => ⟨S3200x3, .f32⟩
  | .local _ .vmem, ⟨21, _⟩ => ⟨S3200x64, .f32⟩
  | .local _ .vmem, ⟨22, _⟩ => ⟨S3200x64, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v40_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3200x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3200x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3200x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bitsLt_bf16_f32 : FTy.bits .bf16 < FTy.bits .f32
  slices_S129x64_S64x64_1_0 : S129x64.Slices ![1, 0] S64x64
  slices_S129x64_S64x64_65_0 : S129x64.Slices ![65, 0] S64x64
  slices_S129x64_S1x64_0_0 : S129x64.Slices ![0, 0] S1x64
  shapeCasts_S64_S1x64 : S64.ShapeCasts S1x64
  inb_S3200x3_S3200x3_0_0 : ∀ a, (![0, 0] : Fin 2 → Nat) a + S3200x3.size a ≤ S3200x3.size a
  h_S3200x3 : 0 < S3200x3.numel
  shapeCasts_S3200x3_S3200x3 : S3200x3.ShapeCasts S3200x3
  reduces_S3200x3_S3200 : S3200x3.Reduces [1] S3200
  shapeCasts_S3200_S3200x1 : S3200.ShapeCasts S3200x1
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S3200x1_S3200x64 : S3200x1.Broadcasts S3200x64
  broadcasts_S1x64_S3200x64 : S1x64.Broadcasts S3200x64
  broadcasts_S3200x1_S3200x3 : S3200x1.Broadcasts S3200x3
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S3200x1_S3200x1_0_0 : ∀ a, (![0, 0] : Fin 2 → Nat) a + S3200x1.size a ≤ S3200x1.size a
  h_S3200x1 : 0 < S3200x1.numel
  gather_S50000x3_S1600000x1_S1600000x3_1_0_n_n_0_1_13_wf : GatherDims.WF S50000x3 S1600000x1 S1600000x3 [1] [0] [] [0] [] 1 ![1, 3]
  gather_S50000x64_S1600000x1_S1600000x64_1_0_n_n_0_1_164_wf : GatherDims.WF S50000x64 S1600000x1 S1600000x64 [1] [0] [] [0] [] 1 ![1, 64]
  dot_S3200x64_S64x64_S3200x64_1_0_0_1_n_n_wf : DotDims.WF S3200x64 S64x64 S3200x64 [1] [0] [0] [1] [] []
  dot_S3200x64_S64x1_S3200x1_1_0_0_1_n_n_wf : DotDims.WF S3200x64 S64x1 S3200x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x3.size a ≤ S1600000x3.size a
  hwx0_0 : ∀ i : grid0.Coords, EltTy.bits .f32 = 32 ∨ (Rect.block (s := S1600000x3) S3200x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x3.size a ≤ S1600000x3.size a
  hwx0_1 : ∀ i : grid0.Coords, EltTy.bits .f32 = 32 ∨ (Rect.block (s := S1600000x3) S3200x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S1600000x64.size a
  hwx0_2 : ∀ i : grid0.Coords, EltTy.bits .bf16 = 32 ∨ (Rect.block (s := S1600000x64) S3200x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x64.size a ≤ S1600000x64.size a
  hwx0_3 : ∀ i : grid0.Coords, EltTy.bits .bf16 = 32 ∨ (Rect.block (s := S1600000x64) S3200x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .bf16 = 32 ∨ (Rect.block (s := S64x64) S64x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S64x1.size a
  hwx0_12 : ∀ i : grid0.Coords, EltTy.bits .bf16 = 32 ∨ (Rect.block (s := S64x1) S64x1.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3200x1.size a ≤ S1600000x1.size a
  hwx0_13 : ∀ i : grid0.Coords, EltTy.bits .f32 = 32 ∨ (Rect.block (s := S1600000x1) S3200x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3200x3.size a ≤ S1600000x3.size a
  hwx0_14 : ∀ i : grid0.Coords, EltTy.bits .f32 = 32 ∨ (Rect.block (s := S1600000x3) S3200x3.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S3200x64.size a ≤ S1600000x64.size a
  hwx0_15 : ∀ i : grid0.Coords, EltTy.bits .f32 = 32 ∨ (Rect.block (s := S1600000x64) S3200x64.size (cc0_transform_15 i) (hinb0_15 i)).WholeWords (EltTy.packing .f32)

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x64_S64x1_S3200x1_1_0_0_1_n_n : DotDims S3200x64 S64x1 S3200x1 where
  lhsContracting := [1]
  rhsContracting := [0]
  lhsNonContracting := [0]
  rhsNonContracting := [1]
  lhsBatch := []
  rhsBatch := []
  wf := dot_S3200x64_S64x1_S3200x1_1_0_0_1_n_n_wf

abbrev win0_0 : Pipeline.Window sig grid0 :=
  Pipeline.Window.ofSpec (Memref.whole main_v6) S3200x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3200x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S3200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S3200x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v38) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39) S64x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v40_0) S3200x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v40_1) S3200x3.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v40_2) S3200x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x3 : Shape := ⟨2, ![50000, 3]⟩
abbrev S50000x64 : Shape := ⟨2, ![50000, 64]⟩
abbrev S1600000 : Shape := ⟨1, ![1600000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S_ : Shape := ⟨0, ![]⟩
abbrev S1600000x1 : Shape := ⟨2, ![1600000, 1]⟩
abbrev S1600000x3 : Shape := ⟨2, ![1600000, 3]⟩
abbrev S1600000x64 : Shape := ⟨2, ![1600000, 64]⟩
abbrev S1600000x129 : Shape := ⟨2, ![1600000, 129]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x3, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x3, .f32⟩
  | .hbm, ⟨29, _⟩ => ⟨S1600000x3, .f32⟩
  | .hbm, ⟨30, _⟩ => ⟨S1600000x3, .f32⟩
  | .hbm, ⟨31, _⟩ => ⟨S_, .f32⟩
  | .hbm, ⟨32, _⟩ => ⟨S1600000, .f32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x129, .f32⟩
  | .hbm, ⟨53, _⟩ => ⟨S1600000x64, .f32⟩
  | .hbm, ⟨54, _⟩ => ⟨S1x64, .f32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S1600000x64, .f32⟩
  | .hbm, ⟨64, _⟩ => ⟨S1600000x64, .f32⟩
  | .hbm, ⟨65, _⟩ => ⟨S1600000x64, .f32⟩
  | .hbm, ⟨66, _⟩ => ⟨S1600000x64, .f32⟩
  | .hbm, ⟨67, _⟩ => ⟨S1x64, .f32⟩
  | .hbm, ⟨68, _⟩ => ⟨S1600000x64, .f32⟩
  | .hbm, ⟨69, _⟩ => ⟨S1600000x64, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S1600000x64, .f32⟩
  | .hbm, ⟨77, _⟩ => ⟨S1600000x64, .f32⟩
  | .hbm, ⟨78, _⟩ => ⟨S1600000x64, .f32⟩
  | .hbm, ⟨79, _⟩ => ⟨S1600000x1, .f32⟩
  | .hbm, ⟨80, _⟩ => ⟨S_, .f32⟩
  | .hbm, ⟨81, _⟩ => ⟨S1600000x1, .f32⟩
  | .hbm, ⟨82, _⟩ => ⟨S1600000x1, .f32⟩
  | .hbm, ⟨83, _⟩ => ⟨S1600000x3, .f32⟩
  | .hbm, ⟨84, _⟩ => ⟨S1600000x3, .f32⟩
  | .hbm, ⟨85, _⟩ => ⟨S1600000x64, .f32⟩
  | .hbm, ⟨86, _⟩ => ⟨S1x64, .f32⟩
  | .hbm, ⟨87, _⟩ => ⟨S1600000x64, .f32⟩
  | .hbm, ⟨88, _⟩ => ⟨S1600000x64, .f32⟩
  | .hbm, ⟨89, _⟩ => ⟨S1600000x64, .f32⟩
  | .hbm, ⟨90, _⟩ => ⟨S1600000x64, .f32⟩
  | .hbm, ⟨91, _⟩ => ⟨S_, .f32⟩
  | .hbm, ⟨92, _⟩ => ⟨S1600000x64, .f32⟩
  | .hbm, ⟨93, _⟩ => ⟨S1600000x64, .f32⟩
  | .hbm, ⟨94, _⟩ => ⟨S_, .f32⟩
  | .hbm, ⟨95, _⟩ => ⟨S1600000x64, .f32⟩
  | .hbm, ⟨96, _⟩ => ⟨S1600000x64, .f32⟩
  | .hbm, ⟨97, _⟩ => ⟨S1600000x64, .f32⟩
  | .hbm, ⟨98, _⟩ => ⟨S1600000x1, .f32⟩
  | .hbm, ⟨99, _⟩ => ⟨S1600000x1, .f32⟩
  | .hbm, ⟨100, _⟩ => ⟨S1600000x3, .f32⟩
  | .hbm, ⟨101, _⟩ => ⟨S1600000x3, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v42 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  concatenates_S1600000x1_S1600000x64_S1600000x64_S1600000x129_d1 : Shape.Concatenates [S1600000x1, S1600000x64, S1600000x64] S1600000x129 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000x1 : S_.BroadcastsInDim S1600000x1 (![] : Fin 0 → Fin S1600000x1.rank)
  bcast_S1600000x1_S1600000x3_0_1 : S1600000x1.BroadcastsInDim S1600000x3 (![0, 1] : Fin 2 → Fin S1600000x3.rank)
  gather_S50000x3_S1600000x1_S1600000x3_1_0_n_n_0_1_13_wf : GatherDims.WF S50000x3 S1600000x1 S1600000x3 [1] [0] [] [0] [] 1 ![1, 3]
  gather_S50000x64_S1600000x1_S1600000x64_1_0_n_n_0_1_164_wf : GatherDims.WF S50000x64 S1600000x1 S1600000x64 [1] [0] [] [0] [] 1 ![1, 64]
  dot_S1600000x129_S129x64_S1600000x64_1_0_0_1_n_n_wf : DotDims.WF S1600000x129 S129x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x129_S129x64_S1600000x64_1_0_0_1_n_n : DotDims S1600000x129 S129x64 S1600000x64 where
  lhsContracting := [1]
  rhsContracting := [0]
  lhsNonContracting := [0]
  rhsNonContracting := [1]
  lhsBatch := []
  rhsBatch := []
  wf := dot_S1600000x129_S129x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.EdgeSpec.lean ====
/-
  The edge network's value, stated once for both programs.

  For one edge with endpoint coordinates `a b : Fin 3 → EReal` and endpoint features `hs hd : Fin 64 → EReal`:
  the squared distance `sqDist a b = Σ_k (a k - b k)²`; the first hidden layer
  `hidden1 = silu (r · w0 + (hs · Ws + hd · Wd) + b1)` with `r` the squared distance, where `w0`, `Ws`, `Wd` are rows 0,
  1–64 and 65–128 of the first weight matrix; a dense layer `dense v W b = silu (v · W + b)`; the edge feature
  `feat = dense hidden1 W2 b2`; and the coordinate shift `shift k = (a k - b k) / (√r + ε) · tanh (dense feat W3 b3 · w4)`.
  `silu x = x · logistic x` on the extended reals. One program writes the first layer as the three partial products
  above, the other as ONE product of the 129-wide concatenation `[r, hs, hd]` with the whole matrix: `sum129_split` is
  the law between them, a regrouping of a finite sum in a commutative monoid (no finiteness is needed).
-/
import Idealize.ShloMosaic.PureOps.Ideal
import Idealize.ShloMosaic.PureOps.Ideal.Laws
import Idealize.ShloMosaic.Lib.ValueIdx

noncomputable section

namespace Cert.EdgeSpec

open Idealize.ShloMosaic Idealize.ShloMosaic.ValueIdx

/-- `x · logistic x`. -/
def silu (x : EReal) : EReal := x * Ideal.logistic x

/-- The squared distance of two points of 3-space. -/
def sqDist (a b : Fin 3 → EReal) : EReal := ∑ k : Fin 3, (a k - b k) * (a k - b k)

/-- The first hidden layer at unit `j`: the squared distance times its weight row, plus the two endpoint features through
    their weight blocks, plus the bias, through `silu`. -/
def hidden1 (r : EReal) (hs hd : Fin 64 → EReal) (w0 : Fin 64 → EReal) (ws wd : Fin 64 → Fin 64 → EReal) (b : Fin 64 → EReal)
    (j : Fin 64) : EReal :=
  silu (r * w0 j + ((∑ k : Fin 64, hs k * ws k j) + ∑ k : Fin 64, hd k * wd k j) + b j)

/-- A dense layer with `silu` at unit `j`. -/
def dense (v : Fin 64 → EReal) (w : Fin 64 → Fin 64 → EReal) (b : Fin 64 → EReal) (j : Fin 64) : EReal :=
  silu ((∑ k : Fin 64, v k * w k j) + b j)

/-- The edge feature at unit `j`. -/
def feat (a b : Fin 3 → EReal) (hs hd : Fin 64 → EReal) (w0 : Fin 64 → EReal) (ws wd : Fin 64 → Fin 64 → EReal) (b1 : Fin 64 → EReal)
    (w2 : Fin 64 → Fin 64 → EReal) (b2 : Fin 64 → EReal) (j : Fin 64) : EReal :=
  dense (hidden1 (sqDist a b) hs hd w0 ws wd b1) w2 b2 j

/-- The scalar gain of the coordinate update: `tanh` of a 64-term product. -/
def gain (v w : Fin 64 → EReal) : EReal := Ideal.tanh (∑ k : Fin 64, v k * w k)

/-- The coordinate shift along axis `k`: the normalized difference times the gain. -/
def shift (a b : Fin 3 → EReal) (hs hd : Fin 64 → EReal) (w0 : Fin 64 → EReal) (ws wd : Fin 64 → Fin 64 → EReal) (b1 : Fin 64 → EReal)
    (w2 : Fin 64 → Fin 64 → EReal) (b2 : Fin 64 → EReal) (w3 : Fin 64 → Fin 64 → EReal) (b3 : Fin 64 → EReal) (w4 : Fin 64 → EReal)
    (eps : EReal) (k : Fin 3) : EReal :=
  Ideal.div (a k - b k) (Ideal.sqrt (sqDist a b) + eps) * gain (dense (feat a b hs hd w0 ws wd b1 w2 b2) w3 b3) w4

/-- A 129-term sum is its first term plus the next 64 plus the last 64. -/
theorem sum129_split (f : Fin 129 → EReal) :
    ∑ k : Fin 129, f k
      = f ⟨0, by omega⟩ + ((∑ k : Fin 64, f ⟨k.val + 1, by omega⟩) + ∑ k : Fin 64, f ⟨k.val + 65, by omega⟩) := by
  rw [← Fin.sum_congr' f (show 1 + (64 + 64) = 129 from rfl), Fin.sum_univ_add, Fin.sum_univ_add, Fin.sum_univ_one]
  refine congrArg₂ (· + ·) rfl (congrArg₂ (· + ·) (Finset.sum_congr rfl fun k _ => congrArg f (Fin.ext ?_))
    (Finset.sum_congr rfl fun k _ => congrArg f (Fin.ext ?_)))
  · show 1 + k.val = k.val + 1; omega
  · show 1 + (64 + k.val) = k.val + 65; omega

/-! ## The three results as whole arrays

`xs xd` are the endpoint coordinates per edge (1 600 000 × 3), `hs hd` the endpoint features per edge (1 600 000 × 64);
`W1 … W4`, `b1 … b3` the weights as the programs receive them. -/

abbrev E3 : Shape := ⟨2, ![1600000, 3]⟩
abbrev E64 : Shape := ⟨2, ![1600000, 64]⟩
abbrev E1 : Shape := ⟨2, ![1600000, 1]⟩
abbrev M129 : Shape := ⟨2, ![129, 64]⟩
abbrev M64 : Shape := ⟨2, ![64, 64]⟩
abbrev M64x1 : Shape := ⟨2, ![64, 1]⟩
abbrev V64 : Shape := ⟨1, ![64]⟩

/-- Row `e` of a two-axis array. -/
def row {n0 n1 : Nat} (x : (⟨2, ![n0, n1]⟩ : Shape).Idx → EReal) (e : Fin n0) : Fin n1 → EReal := fun k => x (ix2 e k)

/-- A two-axis array as a function of its two coordinates. -/
def mat {n0 n1 : Nat} (x : (⟨2, ![n0, n1]⟩ : Shape).Idx → EReal) : Fin n0 → Fin n1 → EReal := fun k j => x (ix2 k j)

/-- A one-axis array as a function of its coordinate. -/
def vec {n : Nat} (x : (⟨1, ![n]⟩ : Shape).Idx → EReal) : Fin n → EReal := fun j => x (ix1 j)

/-- Rows `off … off+63` of the first weight matrix. -/
def rows64 (W1 : M129.Idx → EReal) (off : Nat) (h : off + 64 ≤ 129) : Fin 64 → Fin 64 → EReal :=
  fun k j => W1 (ix2 ⟨k.val + off, by omega⟩ j)

/-- The small positive constant added to the distance (the same binary32 word in both programs). -/
def eps : EReal := Ideal.ofBits .f32 0x322BCC77#32

/-- Squared distance per edge. -/
def Gradial (xs xd : E3.Idx → EReal) : E1.Idx → EReal := fun i => sqDist (row xs (i 0)) (row xd (i 0))

/-- Edge feature per edge and unit. -/
def Gfeat (xs xd : E3.Idx → EReal) (hs hd : E64.Idx → EReal) (W1 : M129.Idx → EReal) (b1 : V64.Idx → EReal)
    (W2 : M64.Idx → EReal) (b2 : V64.Idx → EReal) : E64.Idx → EReal := fun i =>
  feat (row xs (i 0)) (row xd (i 0)) (row hs (i 0)) (row hd (i 0)) (row W1 ⟨0, by omega⟩) (rows64 W1 1 (by omega)) (rows64 W1 65 (by omega))
    (vec b1) (mat W2) (vec b2) (i 1)

/-- Coordinate shift per edge and axis. -/
def Gshift (xs xd : E3.Idx → EReal) (hs hd : E64.Idx → EReal) (W1 : M129.Idx → EReal) (b1 : V64.Idx → EReal)
    (W2 : M64.Idx → EReal) (b2 : V64.Idx → EReal) (W3 : M64.Idx → EReal) (b3 : V64.Idx → EReal) (W4 : M64x1.Idx → EReal) :
    E3.Idx → EReal := fun i =>
  shift (row xs (i 0)) (row xd (i 0)) (row hs (i 0)) (row hd (i 0)) (row W1 ⟨0, by omega⟩) (rows64 W1 1 (by omega)) (rows64 W1 65 (by omega))
    (vec b1) (mat W2) (vec b2) (mat W3) (vec b3) (fun k => W4 (ix2 k ⟨0, by omega⟩)) eps (i 1)

end Cert.EdgeSpec

end
-- ==== Proof.KernelRows.lean ====
/-
  The kernel body's three stored values, read at an index of the block: row `r` of each depends only on row `r` of the four
  per-edge input blocks and on the weights, through the edge network's functions.
-/
import proofs.«170885_j15135464751165_2_alg».proof.Proof.Gen.KernelIdeal.Skeleton
import proofs.«170885_j15135464751165_2_alg».proof.Proof.EdgeSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx Cert.EdgeSpec

theorem pay3_at (v0 v2 : Vec Ideal S3200x3 .f32) (i : S3200x3.Idx) :
    k0_pay3 (F := Ideal) v0 v2 i = v0 i - v2 i := by
  unfold k0_pay3
  rw [shapeCast_self, shapeCast_self]
  rfl

/-- The stored squared distance at row `r`. -/
theorem pay4_at (v0 v2 : Vec Ideal S3200x3 .f32) (r : Fin 3200) (z : Fin 1) :
    k0_pay4 (F := Ideal) v0 v2 (ix2 r z) = sqDist (row v0 r) (row v2 r) := by
  unfold k0_pay4
  refine (shapeCast_apply _ _ (ix2 r z) (ix1 r) ?_).trans ?_
  · rw [Shape.rowMajor_val_one, Shape.rowMajor_val_two]; show r.val = r.val * 1 + z.val; omega
  refine (Ideal.multiReduction_add_single _ _ _ _ _ _).trans ?_
  unfold sqDist row
  refine Finset.sum_congr rfl fun (k : Fin 3) _ => ?_
  have e : reduces_S3200x3_S3200.lift (ix1 r) k = ix2 r k := funext fun a => Fin.ext (by
    match a with
    | ⟨0, _⟩ => rfl
    | ⟨1, _⟩ => rfl)
  rw [e]
  show k0_pay3 v0 v2 (ix2 r k) * k0_pay3 v0 v2 (ix2 r k) = _
  rw [pay3_at]

theorem mm64_l0 (i : S3200x64.Idx) (q : dot_S3200x64_S64x64_S3200x64_1_0_0_1_n_n.contr.Idx) : (dot_S3200x64_S64x64_S3200x64_1_0_0_1_n_n.lhsIdx i q 0).val = (i 0).val := by
  unfold DotDims.lhsIdx
  rw [dif_neg (show ¬(0 : Fin S3200x64.rank) ∈ dot_S3200x64_S64x64_S3200x64_1_0_0_1_n_n.lhsBatch by decide), dif_pos (show (0 : Fin S3200x64.rank) ∈ dot_S3200x64_S64x64_S3200x64_1_0_0_1_n_n.lhsNonContracting by decide)]
  rfl
theorem mm64_l1 (i : S3200x64.Idx) (q : dot_S3200x64_S64x64_S3200x64_1_0_0_1_n_n.contr.Idx) : (dot_S3200x64_S64x64_S3200x64_1_0_0_1_n_n.lhsIdx i q 1).val = (q ⟨0, by decide⟩).val :=
  dot_S3200x64_S64x64_S3200x64_1_0_0_1_n_n.lhsIdx_val_of_single rfl i q
theorem mm64_r0 (i : S3200x64.Idx) (q : dot_S3200x64_S64x64_S3200x64_1_0_0_1_n_n.contr.Idx) : (dot_S3200x64_S64x64_S3200x64_1_0_0_1_n_n.rhsIdx i q 0).val = (q ⟨0, by decide⟩).val :=
  dot_S3200x64_S64x64_S3200x64_1_0_0_1_n_n.rhsIdx_val_of_single rfl i q
theorem mm64_r1 (i : S3200x64.Idx) (q : dot_S3200x64_S64x64_S3200x64_1_0_0_1_n_n.contr.Idx) : (dot_S3200x64_S64x64_S3200x64_1_0_0_1_n_n.rhsIdx i q 1).val = (i 1).val := by
  unfold DotDims.rhsIdx
  rw [dif_neg (show ¬(1 : Fin S64x64.rank) ∈ dot_S3200x64_S64x64_S3200x64_1_0_0_1_n_n.rhsBatch by decide), dif_pos (show (1 : Fin S64x64.rank) ∈ dot_S3200x64_S64x64_S3200x64_1_0_0_1_n_n.rhsNonContracting by decide)]
  rfl

/-- A block's product with a weight matrix into the zero accumulator, read at row `r`, column `j`: the 64-term sum
    over the contracted axis. -/
theorem mm64_at {φ₁ φ₂ : FTy} (L : FVec Ideal S3200x64 φ₁) (R : FVec Ideal S64x64 φ₂) (r : Fin 3200) (j : Fin 64) :
    matmul dot_S3200x64_S64x64_S3200x64_1_0_0_1_n_n none L R (constant S3200x64 .f32 0x00000000#32) (ix2 r j) = ∑ k : Fin 64, L (ix2 r k) * R (ix2 k j) := by
  simp only [matmul]
  rw [Ideal.matmul_constant_zero_apply, ← Equiv.sum_comp (ValueIdx.contrEquiv1 dot_S3200x64_S64x64_S3200x64_1_0_0_1_n_n 64 rfl rfl).symm]
  refine Finset.sum_congr rfl fun k _ => ?_
  have hk := ValueIdx.contrEquiv1_symm_val dot_S3200x64_S64x64_S3200x64_1_0_0_1_n_n 64 rfl rfl k
  have el : dot_S3200x64_S64x64_S3200x64_1_0_0_1_n_n.lhsIdx (ix2 r j) ((ValueIdx.contrEquiv1 dot_S3200x64_S64x64_S3200x64_1_0_0_1_n_n 64 rfl rfl).symm k) = ix2 r k := funext fun a => Fin.ext (by
    match a with
    | ⟨0, _⟩ => exact mm64_l0 _ _
    | ⟨1, _⟩ => exact (mm64_l1 _ _).trans hk)
  have er : dot_S3200x64_S64x64_S3200x64_1_0_0_1_n_n.rhsIdx (ix2 r j) ((ValueIdx.contrEquiv1 dot_S3200x64_S64x64_S3200x64_1_0_0_1_n_n 64 rfl rfl).symm k) = ix2 k j := funext fun a => Fin.ext (by
    match a with
    | ⟨0, _⟩ => exact (mm64_r0 _ _).trans hk
    | ⟨1, _⟩ => exact mm64_r1 _ _)
  rw [el, er]

theorem mm1_l0 (i : S3200x1.Idx) (q : dot_S3200x64_S64x1_S3200x1_1_0_0_1_n_n.contr.Idx) : (dot_S3200x64_S64x1_S3200x1_1_0_0_1_n_n.lhsIdx i q 0).val = (i 0).val := by
  unfold DotDims.lhsIdx
  rw [dif_neg (show ¬(0 : Fin S3200x64.rank) ∈ dot_S3200x64_S64x1_S3200x1_1_0_0_1_n_n.lhsBatch by decide), dif_pos (show (0 : Fin S3200x64.rank) ∈ dot_S3200x64_S64x1_S3200x1_1_0_0_1_n_n.lhsNonContracting by decide)]
  rfl
theorem mm1_l1 (i : S3200x1.Idx) (q : dot_S3200x64_S64x1_S3200x1_1_0_0_1_n_n.contr.Idx) : (dot_S3200x64_S64x1_S3200x1_1_0_0_1_n_n.lhsIdx i q 1).val = (q ⟨0, by decide⟩).val :=
  dot_S3200x64_S64x1_S3200x1_1_0_0_1_n_n.lhsIdx_val_of_single rfl i q
theorem mm1_r0 (i : S3200x1.Idx) (q : dot_S3200x64_S64x1_S3200x1_1_0_0_1_n_n.contr.Idx) : (dot_S3200x64_S64x1_S3200x1_1_0_0_1_n_n.rhsIdx i q 0).val = (q ⟨0, by decide⟩).val :=
  dot_S3200x64_S64x1_S3200x1_1_0_0_1_n_n.rhsIdx_val_of_single rfl i q
theorem mm1_r1 (i : S3200x1.Idx) (q : dot_S3200x64_S64x1_S3200x1_1_0_0_1_n_n.contr.Idx) : (dot_S3200x64_S64x1_S3200x1_1_0_0_1_n_n.rhsIdx i q 1).val = (i 1).val := by
  unfold DotDims.rhsIdx
  rw [dif_neg (show ¬(1 : Fin S64x1.rank) ∈ dot_S3200x64_S64x1_S3200x1_1_0_0_1_n_n.rhsBatch by decide), dif_pos (show (1 : Fin S64x1.rank) ∈ dot_S3200x64_S64x1_S3200x1_1_0_0_1_n_n.rhsNonContracting by decide)]
  rfl

/-- A block's product with a weight matrix into the zero accumulator, read at row `r`, column `j`: the 64-term sum
    over the contracted axis. -/
theorem mm1_at {φ₁ φ₂ : FTy} (L : FVec Ideal S3200x64 φ₁) (R : FVec Ideal S64x1 φ₂) (r : Fin 3200) (j : Fin 1) :
    matmul dot_S3200x64_S64x1_S3200x1_1_0_0_1_n_n none L R (constant S3200x1 .f32 0x00000000#32) (ix2 r j) = ∑ k : Fin 64, L (ix2 r k) * R (ix2 k j) := by
  simp only [matmul]
  rw [Ideal.matmul_constant_zero_apply, ← Equiv.sum_comp (ValueIdx.contrEquiv1 dot_S3200x64_S64x1_S3200x1_1_0_0_1_n_n 64 rfl rfl).symm]
  refine Finset.sum_congr rfl fun k _ => ?_
  have hk := ValueIdx.contrEquiv1_symm_val dot_S3200x64_S64x1_S3200x1_1_0_0_1_n_n 64 rfl rfl k
  have el : dot_S3200x64_S64x1_S3200x1_1_0_0_1_n_n.lhsIdx (ix2 r j) ((ValueIdx.contrEquiv1 dot_S3200x64_S64x1_S3200x1_1_0_0_1_n_n 64 rfl rfl).symm k) = ix2 r k := funext fun a => Fin.ext (by
    match a with
    | ⟨0, _⟩ => exact mm1_l0 _ _
    | ⟨1, _⟩ => exact (mm1_l1 _ _).trans hk)
  have er : dot_S3200x64_S64x1_S3200x1_1_0_0_1_n_n.rhsIdx (ix2 r j) ((ValueIdx.contrEquiv1 dot_S3200x64_S64x1_S3200x1_1_0_0_1_n_n 64 rfl rfl).symm k) = ix2 k j := funext fun a => Fin.ext (by
    match a with
    | ⟨0, _⟩ => exact (mm1_r0 _ _).trans hk
    | ⟨1, _⟩ => exact mm1_r1 _ _)
  rw [el, er]

/-- A column broadcast along the 64 lanes reads its row. -/
theorem bcol64_at (x : FVec Ideal S3200x1 .f32) (r : Fin 3200) (j : Fin 64) :
    broadcastTo S3200x64 x broadcasts_S3200x1_S3200x64 (ix2 r j) = x (ix2 r ⟨0, by omega⟩) :=
  broadcastTo_apply _ _ (ix2 r j) (ix2 r ⟨0, by omega⟩) (fun a => match a with
    | ⟨0, _⟩ => by show r.val = (if (3200 : Nat) = 1 then 0 else r.val); rw [if_neg (by decide)]
    | ⟨1, _⟩ => by show 0 = (if (1 : Nat) = 1 then 0 else j.val); rw [if_pos rfl])

/-- A column broadcast along the 3 coordinate lanes reads its row. -/
theorem bcol3_at (x : FVec Ideal S3200x1 .f32) (r : Fin 3200) (k : Fin 3) :
    broadcastTo S3200x3 x broadcasts_S3200x1_S3200x3 (ix2 r k) = x (ix2 r ⟨0, by omega⟩) :=
  broadcastTo_apply _ _ (ix2 r k) (ix2 r ⟨0, by omega⟩) (fun a => match a with
    | ⟨0, _⟩ => by show r.val = (if (3200 : Nat) = 1 then 0 else r.val); rw [if_neg (by decide)]
    | ⟨1, _⟩ => by show 0 = (if (1 : Nat) = 1 then 0 else k.val); rw [if_pos rfl])

/-- A one-row vector broadcast down the 3200 rows reads its lane. -/
theorem brow64_at (x : FVec Ideal S1x64 .f32) (r : Fin 3200) (j : Fin 64) :
    broadcastTo S3200x64 x broadcasts_S1x64_S3200x64 (ix2 r j) = x (ix2 ⟨0, by omega⟩ j) :=
  broadcastTo_apply _ _ (ix2 r j) (ix2 ⟨0, by omega⟩ j) (fun a => match a with
    | ⟨0, _⟩ => by show 0 = (if (1 : Nat) = 1 then 0 else r.val); rw [if_pos rfl]
    | ⟨1, _⟩ => by show j.val = (if (64 : Nat) = 1 then 0 else j.val); rw [if_neg (by decide)])

/-- The first layer's pre-activation over a block, as the body computes it. -/
def pre1 (v0 v2 : Vec Ideal S3200x3 .f32) (v8 v10 : Vec Ideal S3200x64 .bf16) (v12 v15 : Vec Ideal S64x64 .bf16)
    (v19 v25 : Vec Ideal S1x64 .f32) : FVec Ideal S3200x64 .f32 :=
  addf (addf (mulf (broadcastTo S3200x64 (k0_pay4 v0 v2) broadcasts_S3200x1_S3200x64)
        (broadcastTo S3200x64 (shapeCast S1x64 v19 shapeCasts_S1x64_S1x64) broadcasts_S1x64_S3200x64))
      (addf (matmul (φ₁ := .bf16) (φ₂ := .bf16) dot_S3200x64_S64x64_S3200x64_1_0_0_1_n_n none (shapeCast S3200x64 v8 shapeCasts_S3200x64_S3200x64) (shapeCast S64x64 v12 shapeCasts_S64x64_S64x64) (constant S3200x64 .f32 0x00000000#32))
        (matmul (φ₁ := .bf16) (φ₂ := .bf16) dot_S3200x64_S64x64_S3200x64_1_0_0_1_n_n none (shapeCast S3200x64 v10 shapeCasts_S3200x64_S3200x64) (shapeCast S64x64 v15 shapeCasts_S64x64_S64x64) (constant S3200x64 .f32 0x00000000#32))))
    (broadcastTo S3200x64 (shapeCast S1x64 v25 shapeCasts_S1x64_S1x64) broadcasts_S1x64_S3200x64)

/-- The first hidden layer over a block. -/
def act1 (v0 v2 : Vec Ideal S3200x3 .f32) (v8 v10 : Vec Ideal S3200x64 .bf16) (v12 v15 : Vec Ideal S64x64 .bf16)
    (v19 v25 : Vec Ideal S1x64 .f32) : FVec Ideal S3200x64 .f32 :=
  mulf (pre1 v0 v2 v8 v10 v12 v15 v19 v25) (logistic (pre1 v0 v2 v8 v10 v12 v15 v19 v25))

theorem pay5_eq (v0 v2 : Vec Ideal S3200x3 .f32) (v8 v10 : Vec Ideal S3200x64 .bf16) (v12 v15 : Vec Ideal S64x64 .bf16)
    (v19 v25 : Vec Ideal S1x64 .f32) (v32 : Vec Ideal S64x64 .bf16) :
    k0_pay5 (F := Ideal) v0 v2 v8 v10 v12 v15 v19 v25 v32
      = matmul (φ₁ := .bf16) (φ₂ := .bf16) dot_S3200x64_S64x64_S3200x64_1_0_0_1_n_n none (truncf .bf16 (act1 v0 v2 v8 v10 v12 v15 v19 v25) bitsLt_bf16_f32) (shapeCast S64x64 v32 shapeCasts_S64x64_S64x64) (constant S3200x64 .f32 0x00000000#32) := rfl

theorem pre1_at (v0 v2 : Vec Ideal S3200x3 .f32) (v8 v10 : Vec Ideal S3200x64 .bf16) (v12 v15 : Vec Ideal S64x64 .bf16)
    (v19 v25 : Vec Ideal S1x64 .f32) (r : Fin 3200) (j : Fin 64) :
    pre1 v0 v2 v8 v10 v12 v15 v19 v25 (ix2 r j)
      = sqDist (row v0 r) (row v2 r) * v19 (ix2 ⟨0, by omega⟩ j)
          + ((∑ k : Fin 64, v8 (ix2 r k) * v12 (ix2 k j)) + ∑ k : Fin 64, v10 (ix2 r k) * v15 (ix2 k j))
          + v25 (ix2 ⟨0, by omega⟩ j) := by
  unfold pre1
  simp only [shapeCast_self]
  show broadcastTo S3200x64 (k0_pay4 v0 v2) broadcasts_S3200x1_S3200x64 (ix2 r j) * broadcastTo S3200x64 v19 broadcasts_S1x64_S3200x64 (ix2 r j)
      + (matmul (φ₁ := .bf16) (φ₂ := .bf16) dot_S3200x64_S64x64_S3200x64_1_0_0_1_n_n none v8 v12 (constant S3200x64 .f32 0x00000000#32) (ix2 r j)
        + matmul (φ₁ := .bf16) (φ₂ := .bf16) dot_S3200x64_S64x64_S3200x64_1_0_0_1_n_n none v10 v15 (constant S3200x64 .f32 0x00000000#32) (ix2 r j))
      + broadcastTo S3200x64 v25 broadcasts_S1x64_S3200x64 (ix2 r j) = _
  rw [bcol64_at, brow64_at, brow64_at, mm64_at, mm64_at, pay4_at]

theorem act1_at (v0 v2 : Vec Ideal S3200x3 .f32) (v8 v10 : Vec Ideal S3200x64 .bf16) (v12 v15 : Vec Ideal S64x64 .bf16)
    (v19 v25 : Vec Ideal S1x64 .f32) (r : Fin 3200) (j : Fin 64) :
    act1 v0 v2 v8 v10 v12 v15 v19 v25 (ix2 r j)
      = hidden1 (sqDist (row v0 r) (row v2 r)) (row v8 r) (row v10 r) (row v19 ⟨0, by omega⟩) (mat v12) (mat v15) (row v25 ⟨0, by omega⟩) j := by
  unfold act1
  show pre1 v0 v2 v8 v10 v12 v15 v19 v25 (ix2 r j) * Ideal.logistic (pre1 v0 v2 v8 v10 v12 v15 v19 v25 (ix2 r j)) = _
  rw [pre1_at]
  rfl

/-- The second layer's product at row `r`, unit `j`: the first hidden layer of row `r` against the weight column. -/
theorem pay5_at (v0 v2 : Vec Ideal S3200x3 .f32) (v8 v10 : Vec Ideal S3200x64 .bf16) (v12 v15 : Vec Ideal S64x64 .bf16)
    (v19 v25 : Vec Ideal S1x64 .f32) (v32 : Vec Ideal S64x64 .bf16) (r : Fin 3200) (j : Fin 64) :
    k0_pay5 (F := Ideal) v0 v2 v8 v10 v12 v15 v19 v25 v32 (ix2 r j)
      = ∑ k : Fin 64, hidden1 (sqDist (row v0 r) (row v2 r)) (row v8 r) (row v10 r) (row v19 ⟨0, by omega⟩) (mat v12) (mat v15)
          (row v25 ⟨0, by omega⟩) k * v32 (ix2 k j) := by
  rw [pay5_eq, shapeCast_self]
  rw [mm64_at]
  refine Finset.sum_congr rfl fun k _ => ?_
  show act1 v0 v2 v8 v10 v12 v15 v19 v25 (ix2 r k) * v32 (ix2 k j) = _
  rw [act1_at]

/-- A bias row added and `silu` applied, at row `r`, unit `j`. -/
theorem pay1_gen (v34 : FVec Ideal S3200x64 .f32) (v35 : Vec Ideal S1x64 .f32) (r : Fin 3200) (j : Fin 64) :
    k0_pay1 (F := Ideal) v34 v35 (ix2 r j) = silu (v34 (ix2 r j) + v35 (ix2 ⟨0, by omega⟩ j)) := by
  unfold k0_pay1
  simp only [shapeCast_self]
  show (v34 (ix2 r j) + broadcastTo S3200x64 v35 broadcasts_S1x64_S3200x64 (ix2 r j))
      * Ideal.logistic (v34 (ix2 r j) + broadcastTo S3200x64 v35 broadcasts_S1x64_S3200x64 (ix2 r j)) = _
  rw [brow64_at]
  rfl

/-- The stored edge feature at row `r`, unit `j`. -/
theorem pay1_at (v0 v2 : Vec Ideal S3200x3 .f32) (v8 v10 : Vec Ideal S3200x64 .bf16) (v12 v15 : Vec Ideal S64x64 .bf16)
    (v19 v25 : Vec Ideal S1x64 .f32) (v32 : Vec Ideal S64x64 .bf16) (v35 : Vec Ideal S1x64 .f32) (r : Fin 3200) (j : Fin 64) :
    k0_pay1 (F := Ideal) (k0_pay5 v0 v2 v8 v10 v12 v15 v19 v25 v32) v35 (ix2 r j)
      = feat (row v0 r) (row v2 r) (row v8 r) (row v10 r) (row v19 ⟨0, by omega⟩) (mat v12) (mat v15) (row v25 ⟨0, by omega⟩)
          (mat v32) (row v35 ⟨0, by omega⟩) j := by
  rw [pay1_gen, pay5_at]
  rfl

/-- The third hidden layer over a block, from the second layer's product `v34`. -/
def act3 (v34 : FVec Ideal S3200x64 .f32) (v35 : Vec Ideal S1x64 .f32) (v47 : Vec Ideal S64x64 .bf16) (v50 : Vec Ideal S1x64 .f32) :
    FVec Ideal S3200x64 .f32 :=
  mulf (addf (matmul (φ₁ := .bf16) (φ₂ := .bf16) dot_S3200x64_S64x64_S3200x64_1_0_0_1_n_n none (truncf .bf16 (k0_pay1 v34 v35) bitsLt_bf16_f32) (shapeCast S64x64 v47 shapeCasts_S64x64_S64x64) (constant S3200x64 .f32 0x00000000#32))
      (broadcastTo S3200x64 (shapeCast S1x64 v50 shapeCasts_S1x64_S1x64) broadcasts_S1x64_S3200x64))
    (logistic (addf (matmul (φ₁ := .bf16) (φ₂ := .bf16) dot_S3200x64_S64x64_S3200x64_1_0_0_1_n_n none (truncf .bf16 (k0_pay1 v34 v35) bitsLt_bf16_f32) (shapeCast S64x64 v47 shapeCasts_S64x64_S64x64) (constant S3200x64 .f32 0x00000000#32))
      (broadcastTo S3200x64 (shapeCast S1x64 v50 shapeCasts_S1x64_S1x64) broadcasts_S1x64_S3200x64)))

theorem act3_at (v34 : FVec Ideal S3200x64 .f32) (v35 : Vec Ideal S1x64 .f32) (v47 : Vec Ideal S64x64 .bf16) (v50 : Vec Ideal S1x64 .f32)
    (r : Fin 3200) (q : Fin 64) :
    act3 v34 v35 v47 v50 (ix2 r q)
      = dense (fun p => k0_pay1 (F := Ideal) v34 v35 (ix2 r p)) (mat v47) (row v50 ⟨0, by omega⟩) q := by
  unfold act3
  simp only [shapeCast_self]
  show (matmul (φ₁ := .bf16) (φ₂ := .bf16) dot_S3200x64_S64x64_S3200x64_1_0_0_1_n_n none (truncf .bf16 (k0_pay1 v34 v35) bitsLt_bf16_f32) v47 (constant S3200x64 .f32 0x00000000#32) (ix2 r q)
        + broadcastTo S3200x64 v50 broadcasts_S1x64_S3200x64 (ix2 r q))
      * Ideal.logistic (matmul (φ₁ := .bf16) (φ₂ := .bf16) dot_S3200x64_S64x64_S3200x64_1_0_0_1_n_n none (truncf .bf16 (k0_pay1 v34 v35) bitsLt_bf16_f32) v47 (constant S3200x64 .f32 0x00000000#32) (ix2 r q)
        + broadcastTo S3200x64 v50 broadcasts_S1x64_S3200x64 (ix2 r q)) = _
  rw [brow64_at, mm64_at]
  rfl

theorem pay2_eq (v4 : FVec Ideal S3200x3 .f32) (v7 : FVec Ideal S3200x1 .f32) (v34 : FVec Ideal S3200x64 .f32) (v35 : Vec Ideal S1x64 .f32)
    (v47 : Vec Ideal S64x64 .bf16) (v50 : Vec Ideal S1x64 .f32) (v57 : Vec Ideal S64x1 .bf16) :
    k0_pay2 (F := Ideal) v4 v7 v34 v35 v47 v50 v57
      = mulf (divf v4 (broadcastTo S3200x3 (addf (sqrt v7) (broadcast S3200x1 (Scalar.ofBits .f32 0x322BCC77#32))) broadcasts_S3200x1_S3200x3))
          (broadcastTo S3200x3 (tanh (matmul (φ₁ := .bf16) (φ₂ := .bf16) dot_S3200x64_S64x1_S3200x1_1_0_0_1_n_n none (truncf .bf16 (act3 v34 v35 v47 v50) bitsLt_bf16_f32) (shapeCast S64x1 v57 shapeCasts_S64x1_S64x1) (constant S3200x1 .f32 0x00000000#32)))
            broadcasts_S3200x1_S3200x3) := rfl

/-- The stored shift at row `r`, axis `k`, from the difference block `v4`, the squared-distance column `v7` and the second
    layer's product `v34`. -/
theorem pay2_gen (v4 : FVec Ideal S3200x3 .f32) (v7 : FVec Ideal S3200x1 .f32) (v34 : FVec Ideal S3200x64 .f32) (v35 : Vec Ideal S1x64 .f32)
    (v47 : Vec Ideal S64x64 .bf16) (v50 : Vec Ideal S1x64 .f32) (v57 : Vec Ideal S64x1 .bf16) (r : Fin 3200) (k : Fin 3) :
    k0_pay2 (F := Ideal) v4 v7 v34 v35 v47 v50 v57 (ix2 r k)
      = Ideal.div (v4 (ix2 r k)) (Ideal.sqrt (v7 (ix2 r ⟨0, by omega⟩)) + eps)
          * gain (dense (fun p => k0_pay1 (F := Ideal) v34 v35 (ix2 r p)) (mat v47) (row v50 ⟨0, by omega⟩)) (fun q => v57 (ix2 q ⟨0, by omega⟩)) := by
  rw [pay2_eq, shapeCast_self]
  show Ideal.div (v4 (ix2 r k)) (broadcastTo S3200x3 (addf (sqrt v7) (broadcast S3200x1 (Scalar.ofBits .f32 0x322BCC77#32))) broadcasts_S3200x1_S3200x3 (ix2 r k))
      * broadcastTo S3200x3 (tanh (matmul (φ₁ := .bf16) (φ₂ := .bf16) dot_S3200x64_S64x1_S3200x1_1_0_0_1_n_n none (truncf .bf16 (act3 v34 v35 v47 v50) bitsLt_bf16_f32) v57 (constant S3200x1 .f32 0x00000000#32))) broadcasts_S3200x1_S3200x3 (ix2 r k) = _
  rw [bcol3_at, bcol3_at]
  show Ideal.div (v4 (ix2 r k)) (Ideal.sqrt (v7 (ix2 r ⟨0, by omega⟩)) + eps)
      * Ideal.tanh (matmul (φ₁ := .bf16) (φ₂ := .bf16) dot_S3200x64_S64x1_S3200x1_1_0_0_1_n_n none (truncf .bf16 (act3 v34 v35 v47 v50) bitsLt_bf16_f32) v57 (constant S3200x1 .f32 0x00000000#32) (ix2 r ⟨0, by omega⟩)) = _
  rw [mm1_at]
  unfold gain
  refine congrArg (_ * ·) (congrArg Ideal.tanh (Finset.sum_congr rfl fun q _ => ?_))
  show act3 v34 v35 v47 v50 (ix2 r q) * v57 (ix2 q ⟨0, by omega⟩) = _
  rw [act3_at]

/-- The stored coordinate shift at row `r`, axis `k`. -/
theorem pay2_at (v0 v2 : Vec Ideal S3200x3 .f32) (v8 v10 : Vec Ideal S3200x64 .bf16) (v12 v15 : Vec Ideal S64x64 .bf16)
    (v19 v25 : Vec Ideal S1x64 .f32) (v32 : Vec Ideal S64x64 .bf16) (v35 : Vec Ideal S1x64 .f32) (v47 : Vec Ideal S64x64 .bf16)
    (v50 : Vec Ideal S1x64 .f32) (v57 : Vec Ideal S64x1 .bf16) (r : Fin 3200) (k : Fin 3) :
    k0_pay2 (F := Ideal) (k0_pay3 v0 v2) (k0_pay4 v0 v2) (k0_pay5 v0 v2 v8 v10 v12 v15 v19 v25 v32) v35 v47 v50 v57 (ix2 r k)
      = shift (row v0 r) (row v2 r) (row v8 r) (row v10 r) (row v19 ⟨0, by omega⟩) (mat v12) (mat v15) (row v25 ⟨0, by omega⟩)
          (mat v32) (row v35 ⟨0, by omega⟩) (mat v47) (row v50 ⟨0, by omega⟩) (fun q => v57 (ix2 q ⟨0, by omega⟩)) eps k := by
  rw [pay2_gen, pay3_at, pay4_at]
  unfold shift
  refine congrArg (_ * gain · _) (congrArg (dense · _ _) (funext fun p => ?_))
  exact pay1_at v0 v2 v8 v10 v12 v15 v19 v25 v32 v35 r p

end Cert.KernelIdeal.Rows

end
-- ==== Proof.KernelArrays.lean ====
/-
  From the kernel's blocks to its three result arrays.

  The grid has 500 points; point `t` works on edges `3200 t … 3200 t + 3199`. Each per-edge window's block at `t` is those
  rows of its array, each weight window is its whole array at every point, and the weights' arrays are slices, reshapes and
  (exact) roundings of the arguments. So what point `t` writes back is block `t` of one function of the whole arrays — the
  squared distance, the edge feature, the coordinate shift per edge — and since the 500 blocks tile the 1 600 000 rows,
  the three result arrays end holding those functions.
-/
import proofs.«170885_j15135464751165_2_alg».proof.Proof.Gen.KernelIdeal.Value
import proofs.«170885_j15135464751165_2_alg».proof.Proof.KernelRows
import proofs.«170885_j15135464751165_2_alg».proof.Proof.EdgeSpec
import Idealize.ShloMosaic.Lib.Pipeline.Value
import Idealize.ShloMosaic.Lib.ValueIdx
import Idealize.ShloMosaic.Lib.Tactic

noncomputable section

namespace Cert.KernelIdeal.Arrays

open Cert.KernelIdeal Cert.KernelIdeal.Gen Cert.KernelIdeal.Value Cert.KernelIdeal.Rows Cert.EdgeSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The zero offsets of a whole-block access. -/
theorem hz : (![0, 0] : Fin 2 → Nat) = fun _ => 0 := funext fun a => by fin_cases a <;> rfl

/-! ## Where each window's block sits, decided once over the 500 grid points -/

/-- The per-edge windows (four inputs, three outputs) sit at row block `t`, column block 0. -/
theorem idx_edge : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- The nine weight windows are one whole block, at block index (0, 0) for every point. -/
theorem idx_weight : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## The per-edge input blocks, read at an index: row `r` of block `t` is row `3200 t + r` of the array -/

theorem blk0_at (c : Dev nD) (t : Fin cfg0.N) (r : Fin 3200) (k : Fin 3) (e : Fin 1600000) (he : e.val = 3200 * t.val + r.val) :
    (iblk m c 0 t : Vec Ideal S3200x3 .f32) (ix2 r k) = (V m c main_v6 : S1600000x3.Idx → EReal) (ix2 e k) := by
  obtain ⟨⟨h0, h1⟩, -⟩ := idx_edge t
  unfold iblk
  rw [View.read_apply]
  show V m c main_v6 _ = V m c main_v6 _
  congr 1
  funext a; apply Fin.ext
  match a with
  | ⟨0, _⟩ => show win0_0.index t (0 : Fin 2) * 3200 + 1 * r.val = e.val; rw [h0, he]; omega
  | ⟨1, _⟩ => show win0_0.index t (1 : Fin 2) * 3 + 1 * k.val = k.val; rw [h1]; omega

theorem blk1_at (c : Dev nD) (t : Fin cfg0.N) (r : Fin 3200) (k : Fin 3) (e : Fin 1600000) (he : e.val = 3200 * t.val + r.val) :
    (iblk m c 1 t : Vec Ideal S3200x3 .f32) (ix2 r k) = (V m c main_v13 : S1600000x3.Idx → EReal) (ix2 e k) := by
  obtain ⟨-, ⟨h0, h1⟩, -⟩ := idx_edge t
  unfold iblk
  rw [View.read_apply]
  show V m c main_v13 _ = V m c main_v13 _
  congr 1
  funext a; apply Fin.ext
  match a with
  | ⟨0, _⟩ => show win0_1.index t (0 : Fin 2) * 3200 + 1 * r.val = e.val; rw [h0, he]; omega
  | ⟨1, _⟩ => show win0_1.index t (1 : Fin 2) * 3 + 1 * k.val = k.val; rw [h1]; omega

theorem blk2_at (c : Dev nD) (t : Fin cfg0.N) (r : Fin 3200) (k : Fin 64) (e : Fin 1600000) (he : e.val = 3200 * t.val + r.val) :
    (iblk m c 2 t : Vec Ideal S3200x64 .bf16) (ix2 r k) = (V m c main_v21 : S1600000x64.Idx → EReal) (ix2 e k) := by
  obtain ⟨-, -, ⟨h0, h1⟩, -⟩ := idx_edge t
  unfold iblk
  rw [View.read_apply]
  show V m c main_v21 _ = V m c main_v21 _
  congr 1
  funext a; apply Fin.ext
  match a with
  | ⟨0, _⟩ => show win0_2.index t (0 : Fin 2) * 3200 + 1 * r.val = e.val; rw [h0, he]; omega
  | ⟨1, _⟩ => show win0_2.index t (1 : Fin 2) * 64 + 1 * k.val = k.val; rw [h1]; omega

theorem blk3_at (c : Dev nD) (t : Fin cfg0.N) (r : Fin 3200) (k : Fin 64) (e : Fin 1600000) (he : e.val = 3200 * t.val + r.val) :
    (iblk m c 3 t : Vec Ideal S3200x64 .bf16) (ix2 r k) = (V m c main_v28 : S1600000x64.Idx → EReal) (ix2 e k) := by
  obtain ⟨-, -, -, ⟨h0, h1⟩, -⟩ := idx_edge t
  unfold iblk
  rw [View.read_apply]
  show V m c main_v28 _ = V m c main_v28 _
  congr 1
  funext a; apply Fin.ext
  match a with
  | ⟨0, _⟩ => show win0_3.index t (0 : Fin 2) * 3200 + 1 * r.val = e.val; rw [h0, he]; omega
  | ⟨1, _⟩ => show win0_3.index t (1 : Fin 2) * 64 + 1 * k.val = k.val; rw [h1]; omega

/-! ## The weight windows' arrays as the region finds them, read at an index, from the arguments

Rounding to the narrower format is the identity on the extended reals, so a rounded weight array is the argument itself. -/

/-- Window 4's array: rows 1–64 of the first weight matrix. -/
theorem v30_at (c : Dev nD) (k j : Fin 64) :
    (V m c main_v30 : S64x64.Idx → EReal) (ix2 k j)
      = ((m ((c : Thread nD τ).loc main_arg4)) : S129x64.Idx → EReal) (ix2 ⟨k.val + 1, by omega⟩ j) := by
  have e : @Eq (S64x64.Idx → EReal) (V m c main_v30) (truncf (F := Ideal) .bf16 (extractStridedSlice S64x64 ![1, 0] (m ((c : Thread nD τ).loc main_arg4)) slices_S129x64_S64x64_1_0) bitsLt_bf16_f32) := by
    dsimp only [Gen.V, Gen.hostOps0]; after_results <;> rfl
  rw [e]
  show extractStridedSlice S64x64 ![1, 0] (m ((c : Thread nD τ).loc main_arg4)) slices_S129x64_S64x64_1_0 (ix2 k j) = _
  refine extractStridedSlice_apply _ _ _ (ix2 k j) (ix2 ⟨k.val + 1, by omega⟩ j) fun a => ?_
  match a with
  | ⟨0, _⟩ => show k.val + 1 = 1 + k.val; omega
  | ⟨1, _⟩ => show j.val = 0 + j.val; omega

/-- Window 5's array: rows 65–128 of the first weight matrix. -/
theorem v32_at (c : Dev nD) (k j : Fin 64) :
    (V m c main_v32 : S64x64.Idx → EReal) (ix2 k j)
      = ((m ((c : Thread nD τ).loc main_arg4)) : S129x64.Idx → EReal) (ix2 ⟨k.val + 65, by omega⟩ j) := by
  have e : @Eq (S64x64.Idx → EReal) (V m c main_v32) (truncf (F := Ideal) .bf16 (extractStridedSlice S64x64 ![65, 0] (m ((c : Thread nD τ).loc main_arg4)) slices_S129x64_S64x64_65_0) bitsLt_bf16_f32) := by
    dsimp only [Gen.V, Gen.hostOps0]; after_results <;> rfl
  rw [e]
  show extractStridedSlice S64x64 ![65, 0] (m ((c : Thread nD τ).loc main_arg4)) slices_S129x64_S64x64_65_0 (ix2 k j) = _
  refine extractStridedSlice_apply _ _ _ (ix2 k j) (ix2 ⟨k.val + 65, by omega⟩ j) fun a => ?_
  match a with
  | ⟨0, _⟩ => show k.val + 65 = 65 + k.val; omega
  | ⟨1, _⟩ => show j.val = 0 + j.val; omega

/-- Window 6's array: row 0 of the first weight matrix. -/
theorem v33_at (c : Dev nD) (j : Fin 64) :
    (V m c main_v33 : S1x64.Idx → EReal) (ix2 ⟨0, by omega⟩ j) = ((m ((c : Thread nD τ).loc main_arg4)) : S129x64.Idx → EReal) (ix2 ⟨0, by omega⟩ j) := by
  have e : @Eq (S1x64.Idx → EReal) (V m c main_v33) (extractStridedSlice S1x64 ![0, 0] (m ((c : Thread nD τ).loc main_arg4)) slices_S129x64_S1x64_0_0) := by
    dsimp only [Gen.V, Gen.hostOps0]; after_results <;> rfl
  rw [e]
  refine extractStridedSlice_apply _ _ _ (ix2 ⟨0, by omega⟩ j) (ix2 ⟨0, by omega⟩ j) fun a => ?_
  match a with
  | ⟨0, _⟩ => show 0 = 0 + 0; omega
  | ⟨1, _⟩ => show j.val = 0 + j.val; omega

/-- Window 7's array: the first bias as a one-row matrix. -/
theorem v34_at (c : Dev nD) (j : Fin 64) :
    (V m c main_v34 : S1x64.Idx → EReal) (ix2 ⟨0, by omega⟩ j) = ((m ((c : Thread nD τ).loc main_arg5)) : S64.Idx → EReal) (ix1 j) := by
  have e : @Eq (S1x64.Idx → EReal) (V m c main_v34) (shapeCast S1x64 (m ((c : Thread nD τ).loc main_arg5)) shapeCasts_S64_S1x64) := by
    dsimp only [Gen.V, Gen.hostOps0]; after_results <;> rfl
  rw [e]
  refine shapeCast_apply _ _ (ix2 ⟨0, by omega⟩ j) (ix1 j) ?_
  rw [Shape.rowMajor_val_one, Shape.rowMajor_val_two]
  show j.val = 0 * 64 + j.val; omega

/-- Window 8's array: the second weight matrix. -/
theorem v35_eq (c : Dev nD) (y : S64x64.Idx) :
    (V m c main_v35 : S64x64.Idx → EReal) y = ((m ((c : Thread nD τ).loc main_arg6)) : S64x64.Idx → EReal) y := by
  have e : @Eq (S64x64.Idx → EReal) (V m c main_v35) (truncf (F := Ideal) .bf16 (m ((c : Thread nD τ).loc main_arg6)) bitsLt_bf16_f32) := by
    dsimp only [Gen.V, Gen.hostOps0]; after_results <;> rfl
  rw [e]; rfl

/-- Window 9's array: the second bias as a one-row matrix. -/
theorem v36_at (c : Dev nD) (j : Fin 64) :
    (V m c main_v36 : S1x64.Idx → EReal) (ix2 ⟨0, by omega⟩ j) = ((m ((c : Thread nD τ).loc main_arg7)) : S64.Idx → EReal) (ix1 j) := by
  have e : @Eq (S1x64.Idx → EReal) (V m c main_v36) (shapeCast S1x64 (m ((c : Thread nD τ).loc main_arg7)) shapeCasts_S64_S1x64) := by
    dsimp only [Gen.V, Gen.hostOps0]; after_results <;> rfl
  rw [e]
  refine shapeCast_apply _ _ (ix2 ⟨0, by omega⟩ j) (ix1 j) ?_
  rw [Shape.rowMajor_val_one, Shape.rowMajor_val_two]
  show j.val = 0 * 64 + j.val; omega

/-- Window 10's array: the third weight matrix. -/
theorem v37_eq (c : Dev nD) (y : S64x64.Idx) :
    (V m c main_v37 : S64x64.Idx → EReal) y = ((m ((c : Thread nD τ).loc main_arg8)) : S64x64.Idx → EReal) y := by
  have e : @Eq (S64x64.Idx → EReal) (V m c main_v37) (truncf (F := Ideal) .bf16 (m ((c : Thread nD τ).loc main_arg8)) bitsLt_bf16_f32) := by
    dsimp only [Gen.V, Gen.hostOps0]; after_results <;> rfl
  rw [e]; rfl

/-- Window 11's array: the third bias as a one-row matrix. -/
theorem v38_at (c : Dev nD) (j : Fin 64) :
    (V m c main_v38 : S1x64.Idx → EReal) (ix2 ⟨0, by omega⟩ j) = ((m ((c : Thread nD τ).loc main_arg9)) : S64.Idx → EReal) (ix1 j) := by
  have e : @Eq (S1x64.Idx → EReal) (V m c main_v38) (shapeCast S1x64 (m ((c : Thread nD τ).loc main_arg9)) shapeCasts_S64_S1x64) := by
    dsimp only [Gen.V, Gen.hostOps0]; after_results <;> rfl
  rw [e]
  refine shapeCast_apply _ _ (ix2 ⟨0, by omega⟩ j) (ix1 j) ?_
  rw [Shape.rowMajor_val_one, Shape.rowMajor_val_two]
  show j.val = 0 * 64 + j.val; omega

/-- Window 12's array: the last weight column. -/
theorem v39_eq (c : Dev nD) (y : S64x1.Idx) :
    (V m c main_v39 : S64x1.Idx → EReal) y = ((m ((c : Thread nD τ).loc main_arg10)) : S64x1.Idx → EReal) y := by
  have e : @Eq (S64x1.Idx → EReal) (V m c main_v39) (truncf (F := Ideal) .bf16 (m ((c : Thread nD τ).loc main_arg10)) bitsLt_bf16_f32) := by
    dsimp only [Gen.V, Gen.hostOps0]; after_results <;> rfl
  rw [e]; rfl

/-! ## A weight window's block, at every point, is its whole array -/

theorem blk4_at (c : Dev nD) (t : Fin cfg0.N) (y : S64x64.Idx) :
    (iblk m c 4 t : Vec Ideal S64x64 .bf16) y = (V m c main_v30 : S64x64.Idx → EReal) y := by
  obtain ⟨⟨h0, h1⟩, -⟩ := idx_weight t
  unfold iblk
  rw [View.read_apply]
  show V m c main_v30 _ = V m c main_v30 _
  congr 1
  funext a; apply Fin.ext
  match a with
  | ⟨0, _⟩ => show win0_4.index t (0 : Fin 2) * 64 + 1 * (y 0).val = (y 0).val; rw [h0]; omega
  | ⟨1, _⟩ => show win0_4.index t (1 : Fin 2) * 64 + 1 * (y 1).val = (y 1).val; rw [h1]; omega

theorem blk5_at (c : Dev nD) (t : Fin cfg0.N) (y : S64x64.Idx) :
    (iblk m c 5 t : Vec Ideal S64x64 .bf16) y = (V m c main_v32 : S64x64.Idx → EReal) y := by
  obtain ⟨-, ⟨h0, h1⟩, -⟩ := idx_weight t
  unfold iblk
  rw [View.read_apply]
  show V m c main_v32 _ = V m c main_v32 _
  congr 1
  funext a; apply Fin.ext
  match a with
  | ⟨0, _⟩ => show win0_5.index t (0 : Fin 2) * 64 + 1 * (y 0).val = (y 0).val; rw [h0]; omega
  | ⟨1, _⟩ => show win0_5.index t (1 : Fin 2) * 64 + 1 * (y 1).val = (y 1).val; rw [h1]; omega

theorem blk6_at (c : Dev nD) (t : Fin cfg0.N) (y : S1x64.Idx) :
    (iblk m c 6 t : Vec Ideal S1x64 .f32) y = (V m c main_v33 : S1x64.Idx → EReal) y := by
  obtain ⟨-, -, ⟨h0, h1⟩, -⟩ := idx_weight t
  unfold iblk
  rw [View.read_apply]
  show V m c main_v33 _ = V m c main_v33 _
  congr 1
  funext a; apply Fin.ext
  match a with
  | ⟨0, _⟩ => show win0_6.index t (0 : Fin 2) * 1 + 1 * (y 0).val = (y 0).val; rw [h0]; omega
  | ⟨1, _⟩ => show win0_6.index t (1 : Fin 2) * 64 + 1 * (y 1).val = (y 1).val; rw [h1]; omega

theorem blk7_at (c : Dev nD) (t : Fin cfg0.N) (y : S1x64.Idx) :
    (iblk m c 7 t : Vec Ideal S1x64 .f32) y = (V m c main_v34 : S1x64.Idx → EReal) y := by
  obtain ⟨-, -, -, ⟨h0, h1⟩, -⟩ := idx_weight t
  unfold iblk
  rw [View.read_apply]
  show V m c main_v34 _ = V m c main_v34 _
  congr 1
  funext a; apply Fin.ext
  match a with
  | ⟨0, _⟩ => show win0_7.index t (0 : Fin 2) * 1 + 1 * (y 0).val = (y 0).val; rw [h0]; omega
  | ⟨1, _⟩ => show win0_7.index t (1 : Fin 2) * 64 + 1 * (y 1).val = (y 1).val; rw [h1]; omega

theorem blk8_at (c : Dev nD) (t : Fin cfg0.N) (y : S64x64.Idx) :
    (iblk m c 8 t : Vec Ideal S64x64 .bf16) y = (V m c main_v35 : S64x64.Idx → EReal) y := by
  obtain ⟨-, -, -, -, ⟨h0, h1⟩, -⟩ := idx_weight t
  unfold iblk
  rw [View.read_apply]
  show V m c main_v35 _ = V m c main_v35 _
  congr 1
  funext a; apply Fin.ext
  match a with
  | ⟨0, _⟩ => show win0_8.index t (0 : Fin 2) * 64 + 1 * (y 0).val = (y 0).val; rw [h0]; omega
  | ⟨1, _⟩ => show win0_8.index t (1 : Fin 2) * 64 + 1 * (y 1).val = (y 1).val; rw [h1]; omega

theorem blk9_at (c : Dev nD) (t : Fin cfg0.N) (y : S1x64.Idx) :
    (iblk m c 9 t : Vec Ideal S1x64 .f32) y = (V m c main_v36 : S1x64.Idx → EReal) y := by
  obtain ⟨-, -, -, -, -, ⟨h0, h1⟩, -⟩ := idx_weight t
  unfold iblk
  rw [View.read_apply]
  show V m c main_v36 _ = V m c main_v36 _
  congr 1
  funext a; apply Fin.ext
  match a with
  | ⟨0, _⟩ => show win0_9.index t (0 : Fin 2) * 1 + 1 * (y 0).val = (y 0).val; rw [h0]; omega
  | ⟨1, _⟩ => show win0_9.index t (1 : Fin 2) * 64 + 1 * (y 1).val = (y 1).val; rw [h1]; omega

theorem blk10_at (c : Dev nD) (t : Fin cfg0.N) (y : S64x64.Idx) :
    (iblk m c 10 t : Vec Ideal S64x64 .bf16) y = (V m c main_v37 : S64x64.Idx → EReal) y := by
  obtain ⟨-, -, -, -, -, -, ⟨h0, h1⟩, -⟩ := idx_weight t
  unfold iblk
  rw [View.read_apply]
  show V m c main_v37 _ = V m c main_v37 _
  congr 1
  funext a; apply Fin.ext
  match a with
  | ⟨0, _⟩ => show win0_10.index t (0 : Fin 2) * 64 + 1 * (y 0).val = (y 0).val; rw [h0]; omega
  | ⟨1, _⟩ => show win0_10.index t (1 : Fin 2) * 64 + 1 * (y 1).val = (y 1).val; rw [h1]; omega

theorem blk11_at (c : Dev nD) (t : Fin cfg0.N) (y : S1x64.Idx) :
    (iblk m c 11 t : Vec Ideal S1x64 .f32) y = (V m c main_v38 : S1x64.Idx → EReal) y := by
  obtain ⟨-, -, -, -, -, -, -, ⟨h0, h1⟩, -⟩ := idx_weight t
  unfold iblk
  rw [View.read_apply]
  show V m c main_v38 _ = V m c main_v38 _
  congr 1
  funext a; apply Fin.ext
  match a with
  | ⟨0, _⟩ => show win0_11.index t (0 : Fin 2) * 1 + 1 * (y 0).val = (y 0).val; rw [h0]; omega
  | ⟨1, _⟩ => show win0_11.index t (1 : Fin 2) * 64 + 1 * (y 1).val = (y 1).val; rw [h1]; omega

theorem blk12_at (c : Dev nD) (t : Fin cfg0.N) (y : S64x1.Idx) :
    (iblk m c 12 t : Vec Ideal S64x1 .bf16) y = (V m c main_v39 : S64x1.Idx → EReal) y := by
  obtain ⟨-, -, -, -, -, -, -, -, ⟨h0, h1⟩⟩ := idx_weight t
  unfold iblk
  rw [View.read_apply]
  show V m c main_v39 _ = V m c main_v39 _
  congr 1
  funext a; apply Fin.ext
  match a with
  | ⟨0, _⟩ => show win0_12.index t (0 : Fin 2) * 64 + 1 * (y 0).val = (y 0).val; rw [h0]; omega
  | ⟨1, _⟩ => show win0_12.index t (1 : Fin 2) * 1 + 1 * (y 1).val = (y 1).val; rw [h1]; omega

/-! ## Congruence of the edge network's functions in all their arguments -/

theorem feat_congr {a a' b b' : Fin 3 → EReal} {hs hs' hd hd' w0 w0' b1 b1' b2 b2' : Fin 64 → EReal}
    {ws ws' wd wd' w2 w2' : Fin 64 → Fin 64 → EReal} {j j' : Fin 64}
    (e0 : a = a') (e1 : b = b') (e2 : hs = hs') (e3 : hd = hd') (e4 : w0 = w0') (e5 : ws = ws') (e6 : wd = wd')
    (e7 : b1 = b1') (e8 : w2 = w2') (e9 : b2 = b2') (ej : j = j') :
    feat a b hs hd w0 ws wd b1 w2 b2 j = feat a' b' hs' hd' w0' ws' wd' b1' w2' b2' j' := by
  subst e0 e1 e2 e3 e4 e5 e6 e7 e8 e9 ej; rfl

theorem shift_congr {a a' b b' : Fin 3 → EReal} {hs hs' hd hd' w0 w0' b1 b1' b2 b2' b3 b3' w4 w4' : Fin 64 → EReal}
    {ws ws' wd wd' w2 w2' w3 w3' : Fin 64 → Fin 64 → EReal} {k k' : Fin 3} (ε : EReal)
    (e0 : a = a') (e1 : b = b') (e2 : hs = hs') (e3 : hd = hd') (e4 : w0 = w0') (e5 : ws = ws') (e6 : wd = wd')
    (e7 : b1 = b1') (e8 : w2 = w2') (e9 : b2 = b2') (e10 : w3 = w3') (e11 : b3 = b3') (e12 : w4 = w4') (ek : k = k') :
    shift a b hs hd w0 ws wd b1 w2 b2 w3 b3 w4 ε k = shift a' b' hs' hd' w0' ws' wd' b1' w2' b2' w3' b3' w4' ε k' := by
  subst e0 e1 e2 e3 e4 e5 e6 e7 e8 e9 e10 e11 e12 ek; rfl

/-! ## The squared-distance array (output window 13) -/

/-- What point `t` writes back is block `t` of the squared distances. -/
theorem flushed13_eq (c : Dev nD) (t : Fin cfg0.N) :
    (dats m 0 c).flushed 13 t = ((cfg0.win 13).blk t).view.read (Elt Ideal) (Gradial (V m c main_v6) (V m c main_v13)) := by
  rw [Value.flushed13]
  unfold Gen.out0_13
  rw [View.canon_unit_zero hz]
  simp only [View.ld_unit_zero (S := S3200x3) hz]
  obtain ⟨-, -, -, -, ⟨h0, h1⟩, -⟩ := idx_edge t
  funext y
  show k0_pay4 (F := Ideal) (iblk m c 0 t) (iblk m c 1 t) y = Gradial (V m c main_v6) (V m c main_v13) (((cfg0.win 13).blk t).view.emb y)
  obtain ⟨r, z, rfl⟩ : ∃ (r : Fin 3200) (z : Fin 1), y = ix2 r z := ⟨y 0, y 1, eq_ix2 (n0 := 3200) (n1 := 1) y⟩
  refine (pay4_at (iblk m c 0 t) (iblk m c 1 t) r z).trans ?_
  have he : ((((cfg0.win 13).blk t).view.emb (ix2 r z)) 0).val = 3200 * t.val + r.val := by
    show win0_13.index t (0 : Fin 2) * 3200 + 1 * r.val = _
    rw [h0]; omega
  exact congrArg₂ sqDist (funext fun k => blk0_at m c t r k _ he) (funext fun k => blk1_at m c t r k _ he)

/-- An index of the array is in point `t`'s block iff each coordinate is in the block's range on its axis. -/
theorem mem_blk13 (t : Fin cfg0.N) (i : S1600000x1.Idx) :
    i ∈ ((cfg0.win 13).blk t).view.set ↔ ∀ a : Fin 2, win0_13.index t a * S3200x1.size a ≤ (i a).val ∧ (i a).val < win0_13.index t a * S3200x1.size a + S3200x1.size a := by
  show i ∈ ((View.whole main_v40_0).slice (win0_13.rect t)).set ↔ _
  rw [View.set_slice_whole, Rect.mem_set_unit]
  exact Iff.rfl

/-- Every edge's row is in the block of the point `e / 3200`, and every point writes back. -/
theorem cover13 (i : S1600000x1.Idx) : ∃ t : Fin cfg0.N, (cfg0.win 13).flush t = true ∧ i ∈ ((cfg0.win 13).blk t).view.set := by
  have hi0 : (i 0).val < 1600000 := (i 0).isLt
  have hi1 : (i 1).val < 1 := (i 1).isLt
  have hN : cfg0.N = 500 := N_0
  refine ⟨⟨(i 0).val / 3200, by rw [hN]; omega⟩, flush0_13 _, ?_⟩
  rw [mem_blk13]
  obtain ⟨-, -, -, -, ⟨h0, h1⟩, -⟩ := idx_edge ⟨(i 0).val / 3200, by rw [hN]; omega⟩
  intro a
  match a with
  | ⟨0, _⟩ =>
    show win0_13.index _ (0 : Fin 2) * 3200 ≤ (i 0).val ∧ (i 0).val < win0_13.index _ (0 : Fin 2) * 3200 + 3200
    rw [h0]; show (i 0).val / 3200 * 3200 ≤ (i 0).val ∧ (i 0).val < (i 0).val / 3200 * 3200 + 3200; omega
  | ⟨1, _⟩ =>
    show win0_13.index _ (1 : Fin 2) * 1 ≤ (i 1).val ∧ (i 1).val < win0_13.index _ (1 : Fin 2) * 1 + 1
    rw [h1]; omega

/-- The squared-distance array after the run. -/
theorem final13 (c : Dev nD) : (dats m 0 c).arrAt 13 cfg0.N = Gradial (V m c main_v6) (V m c main_v13) :=
  (dats m 0 c).arrAt_eq_of_cover 13 (Gradial (V m c main_v6) (V m c main_v13)) (fun t _ => flushed13_eq m c t) cover13

/-! ## The edge-feature array (output window 15) -/

/-- What point `t` writes back is block `t` of the edge features. -/
theorem flushed15_eq (c : Dev nD) (t : Fin cfg0.N) :
    (dats m 0 c).flushed 15 t = ((cfg0.win 15).blk t).view.read (Elt Ideal) (Gfeat (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7))) := by
  rw [Value.flushed15]
  unfold Gen.out0_15
  rw [View.canon_unit_zero hz]
  simp only [View.ld_unit_zero (S := S3200x3) hz, View.ld_unit_zero (S := S3200x64) hz, View.ld_unit_zero (S := S64x64) hz, View.ld_unit_zero (S := S1x64) hz]
  obtain ⟨-, -, -, -, -, -, ⟨h0, h1⟩⟩ := idx_edge t
  funext y
  show k0_pay1 (F := Ideal) (k0_pay5 (iblk m c 0 t) (iblk m c 1 t) (iblk m c 2 t) (iblk m c 3 t) (iblk m c 4 t) (iblk m c 5 t) (iblk m c 6 t) (iblk m c 7 t) (iblk m c 8 t)) (iblk m c 9 t) y
    = Gfeat (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7)) (((cfg0.win 15).blk t).view.emb y)
  obtain ⟨r, j, rfl⟩ : ∃ (r : Fin 3200) (j : Fin 64), y = ix2 r j := ⟨y 0, y 1, eq_ix2 (n0 := 3200) (n1 := 64) y⟩
  refine (pay1_at (iblk m c 0 t) (iblk m c 1 t) (iblk m c 2 t) (iblk m c 3 t) (iblk m c 4 t) (iblk m c 5 t) (iblk m c 6 t) (iblk m c 7 t) (iblk m c 8 t) (iblk m c 9 t) r j).trans ?_
  have he : ((((cfg0.win 15).blk t).view.emb (ix2 r j)) 0).val = 3200 * t.val + r.val := by
    show win0_15.index t (0 : Fin 2) * 3200 + 1 * r.val = _
    rw [h0]; omega
  have hj : j = (((cfg0.win 15).blk t).view.emb (ix2 r j)) 1 := Fin.ext (by
    show j.val = win0_15.index t (1 : Fin 2) * 64 + 1 * j.val
    rw [h1]; omega)
  show _ = feat _ _ _ _ _ _ _ _ _ _ _
  exact feat_congr (funext fun k => blk0_at m c t r k _ he) (funext fun k => blk1_at m c t r k _ he)
    (funext fun k => blk2_at m c t r k _ he) (funext fun k => blk3_at m c t r k _ he)
    (funext fun q => (blk6_at m c t _).trans (v33_at m c q))
    (funext fun k => funext fun q => (blk4_at m c t _).trans (v30_at m c k q))
    (funext fun k => funext fun q => (blk5_at m c t _).trans (v32_at m c k q))
    (funext fun q => (blk7_at m c t _).trans (v34_at m c q))
    (funext fun k => funext fun q => (blk8_at m c t _).trans (v35_eq m c _))
    (funext fun q => (blk9_at m c t _).trans (v36_at m c q)) hj

/-- An index of the array is in point `t`'s block iff each coordinate is in the block's range on its axis. -/
theorem mem_blk15 (t : Fin cfg0.N) (i : S1600000x64.Idx) :
    i ∈ ((cfg0.win 15).blk t).view.set ↔ ∀ a : Fin 2, win0_15.index t a * S3200x64.size a ≤ (i a).val ∧ (i a).val < win0_15.index t a * S3200x64.size a + S3200x64.size a := by
  show i ∈ ((View.whole main_v40_2).slice (win0_15.rect t)).set ↔ _
  rw [View.set_slice_whole, Rect.mem_set_unit]
  exact Iff.rfl

/-- Every edge's row is in the block of the point `e / 3200`, and every point writes back. -/
theorem cover15 (i : S1600000x64.Idx) : ∃ t : Fin cfg0.N, (cfg0.win 15).flush t = true ∧ i ∈ ((cfg0.win 15).blk t).view.set := by
  have hi0 : (i 0).val < 1600000 := (i 0).isLt
  have hi1 : (i 1).val < 64 := (i 1).isLt
  have hN : cfg0.N = 500 := N_0
  refine ⟨⟨(i 0).val / 3200, by rw [hN]; omega⟩, flush0_15 _, ?_⟩
  rw [mem_blk15]
  obtain ⟨-, -, -, -, -, -, ⟨h0, h1⟩⟩ := idx_edge ⟨(i 0).val / 3200, by rw [hN]; omega⟩
  intro a
  match a with
  | ⟨0, _⟩ =>
    show win0_15.index _ (0 : Fin 2) * 3200 ≤ (i 0).val ∧ (i 0).val < win0_15.index _ (0 : Fin 2) * 3200 + 3200
    rw [h0]; show (i 0).val / 3200 * 3200 ≤ (i 0).val ∧ (i 0).val < (i 0).val / 3200 * 3200 + 3200; omega
  | ⟨1, _⟩ =>
    show win0_15.index _ (1 : Fin 2) * 64 ≤ (i 1).val ∧ (i 1).val < win0_15.index _ (1 : Fin 2) * 64 + 64
    rw [h1]; omega

/-- The edge-feature array after the run. -/
theorem final15 (c : Dev nD) : (dats m 0 c).arrAt 15 cfg0.N = Gfeat (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7)) :=
  (dats m 0 c).arrAt_eq_of_cover 15 (Gfeat (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7))) (fun t _ => flushed15_eq m c t) cover15

/-! ## The coordinate-shift array (output window 14) -/

/-- What point `t` writes back is block `t` of the coordinate shifts. -/
theorem flushed14_eq (c : Dev nD) (t : Fin cfg0.N) :
    (dats m 0 c).flushed 14 t = ((cfg0.win 14).blk t).view.read (Elt Ideal) (Gshift (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed14]
  unfold Gen.out0_14
  rw [View.canon_unit_zero hz]
  simp only [View.ld_unit_zero (S := S3200x3) hz, View.ld_unit_zero (S := S3200x64) hz, View.ld_unit_zero (S := S64x64) hz, View.ld_unit_zero (S := S1x64) hz, View.ld_unit_zero (S := S64x1) hz]
  obtain ⟨-, -, -, -, -, ⟨h0, h1⟩, -⟩ := idx_edge t
  funext y
  show k0_pay2 (F := Ideal) (k0_pay3 (iblk m c 0 t) (iblk m c 1 t)) (k0_pay4 (iblk m c 0 t) (iblk m c 1 t)) (k0_pay5 (iblk m c 0 t) (iblk m c 1 t) (iblk m c 2 t) (iblk m c 3 t) (iblk m c 4 t) (iblk m c 5 t) (iblk m c 6 t) (iblk m c 7 t) (iblk m c 8 t))
      (iblk m c 9 t) (iblk m c 10 t) (iblk m c 11 t) (iblk m c 12 t) y
    = Gshift (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 14).blk t).view.emb y)
  obtain ⟨r, k, rfl⟩ : ∃ (r : Fin 3200) (k : Fin 3), y = ix2 r k := ⟨y 0, y 1, eq_ix2 (n0 := 3200) (n1 := 3) y⟩
  refine (pay2_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r k).trans ?_
  have he : ((((cfg0.win 14).blk t).view.emb (ix2 r k)) 0).val = 3200 * t.val + r.val := by
    show win0_14.index t (0 : Fin 2) * 3200 + 1 * r.val = _
    rw [h0]; omega
  have hk : k = (((cfg0.win 14).blk t).view.emb (ix2 r k)) 1 := Fin.ext (by
    show k.val = win0_14.index t (1 : Fin 2) * 3 + 1 * k.val
    rw [h1]; omega)
  show _ = shift _ _ _ _ _ _ _ _ _ _ _ _ _ _ _
  exact shift_congr eps (funext fun p => blk0_at m c t r p _ he) (funext fun p => blk1_at m c t r p _ he)
    (funext fun p => blk2_at m c t r p _ he) (funext fun p => blk3_at m c t r p _ he)
    (funext fun q => (blk6_at m c t _).trans (v33_at m c q))
    (funext fun p => funext fun q => (blk4_at m c t _).trans (v30_at m c p q))
    (funext fun p => funext fun q => (blk5_at m c t _).trans (v32_at m c p q))
    (funext fun q => (blk7_at m c t _).trans (v34_at m c q))
    (funext fun p => funext fun q => (blk8_at m c t _).trans (v35_eq m c _))
    (funext fun q => (blk9_at m c t _).trans (v36_at m c q))
    (funext fun p => funext fun q => (blk10_at m c t _).trans (v37_eq m c _))
    (funext fun q => (blk11_at m c t _).trans (v38_at m c q))
    (funext fun q => (blk12_at m c t _).trans (v39_eq m c _)) hk

/-- An index of the array is in point `t`'s block iff each coordinate is in the block's range on its axis. -/
theorem mem_blk14 (t : Fin cfg0.N) (i : S1600000x3.Idx) :
    i ∈ ((cfg0.win 14).blk t).view.set ↔ ∀ a : Fin 2, win0_14.index t a * S3200x3.size a ≤ (i a).val ∧ (i a).val < win0_14.index t a * S3200x3.size a + S3200x3.size a := by
  show i ∈ ((View.whole main_v40_1).slice (win0_14.rect t)).set ↔ _
  rw [View.set_slice_whole, Rect.mem_set_unit]
  exact Iff.rfl

/-- Every edge's row is in the block of the point `e / 3200`, and every point writes back. -/
theorem cover14 (i : S1600000x3.Idx) : ∃ t : Fin cfg0.N, (cfg0.win 14).flush t = true ∧ i ∈ ((cfg0.win 14).blk t).view.set := by
  have hi0 : (i 0).val < 1600000 := (i 0).isLt
  have hi1 : (i 1).val < 3 := (i 1).isLt
  have hN : cfg0.N = 500 := N_0
  refine ⟨⟨(i 0).val / 3200, by rw [hN]; omega⟩, flush0_14 _, ?_⟩
  rw [mem_blk14]
  obtain ⟨-, -, -, -, -, ⟨h0, h1⟩, -⟩ := idx_edge ⟨(i 0).val / 3200, by rw [hN]; omega⟩
  intro a
  match a with
  | ⟨0, _⟩ =>
    show win0_14.index _ (0 : Fin 2) * 3200 ≤ (i 0).val ∧ (i 0).val < win0_14.index _ (0 : Fin 2) * 3200 + 3200
    rw [h0]; show (i 0).val / 3200 * 3200 ≤ (i 0).val ∧ (i 0).val < (i 0).val / 3200 * 3200 + 3200; omega
  | ⟨1, _⟩ =>
    show win0_14.index _ (1 : Fin 2) * 3 ≤ (i 1).val ∧ (i 1).val < win0_14.index _ (1 : Fin 2) * 3 + 3
    rw [h1]; omega

/-- The coordinate-shift array after the run. -/
theorem final14 (c : Dev nD) : (dats m 0 c).arrAt 14 cfg0.N = Gshift (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 14 (Gshift (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed14_eq m c t) cover14

/-! ## The run, read -/

/-- The frame run re-posted: each result array at its function of the gathered per-edge arrays and the weights, the
    arguments unchanged. -/
theorem run : θ_run defs (onTc (τ := τ) (main (F := Ideal))) ⟨m, fun _ => 0, ρ⟩ fun r => ∀ c : Dev nD,
      r.2.mem ((c : Thread nD τ).loc main_v40_0) = Gradial (V m c main_v6) (V m c main_v13)
      ∧ r.2.mem ((c : Thread nD τ).loc main_v40_1) = Gshift (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v40_2) = Gfeat (V m c main_v6) (V m c main_v13) (V m c main_v21) (V m c main_v28) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final13 m c), (h c).2.1.trans (final14 m c),
      (h c).2.2.1.trans (final15 m c), (h c).2.2.2⟩)
    (Value.run_blocks m ρ)

end Cert.KernelIdeal.Arrays

end
-- ==== Proof.RefValue.lean ====
/-
  The reference is the specification.

  The reference program gathers the endpoint coordinates and endpoint features of every edge, takes the squared
  distance, joins `[r, hs, hd]` into one 129-wide row, and runs a four-layer network on it. Each of its three results is
  read here at an index and shown equal to the specification's value there: the squared distance `sqDist`, the edge
  feature `feat`, and the coordinate shift `shift`. The only law used beyond reading operations at an index is the
  regrouping of the 129-term sum into its first term and two 64-term sums, and that the reference's spelling of
  `silu`, `x · (1 / (1 + exp (-x)))`, is `x · logistic x`.
-/
import proofs.«170885_j15135464751165_2_alg».proof.Proof.Gen.ReferenceIdeal.Read
import proofs.«170885_j15135464751165_2_alg».proof.Proof.EdgeSpec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.EdgeSpec

/-! ## The squared distance -/

/-- The squared distance's row: the reduction's three terms are the squares of the coordinate differences. -/
theorem radial_at (x0 : (⟨S50000x3, .f32⟩ : BufTy).Contents (Elt Ideal)) (x2 x3 : (⟨S1600000, .i32⟩ : BufTy).Contents (Elt Ideal)) (e : Fin 1600000) (z : Fin 1) :
    val_main_v17 (F := Ideal) x0 x2 x3 (ix2 e z)
      = sqDist (row (val_main_v6 (F := Ideal) x0 x2) e) (row (val_main_v13 (F := Ideal) x0 x3) e) := by
  rw [val_main_v17_apply, val_main_v16_apply, val_main_cst_apply]
  show Ideal.ofBits .f32 0x00000000#32 + _ = _
  rw [Ideal.ofBits_zero_f32, zero_add]
  unfold sqDist
  refine Finset.sum_congr rfl fun k _ => ?_
  have hk : idx_main_v16 (idx_main_v17 (ix2 e z)) k = ix2 e k :=
    funext fun a => by match a with | ⟨0, _⟩ => rfl | ⟨1, _⟩ => rfl
  rw [hk]
  rfl

theorem radial_eq (x0 : (⟨S50000x3, .f32⟩ : BufTy).Contents (Elt Ideal)) (x2 x3 : (⟨S1600000, .i32⟩ : BufTy).Contents (Elt Ideal)) :
    val_main_v17 (F := Ideal) x0 x2 x3 = Gradial (val_main_v6 (F := Ideal) x0 x2) (val_main_v13 (F := Ideal) x0 x3) := by
  funext i
  obtain ⟨e, z, rfl⟩ : ∃ (e : Fin 1600000) (z : Fin 1), i = ix2 e z := ⟨i 0, i 1, eq_ix2 i⟩
  exact radial_at x0 x2 x3 e z
/-! ## The joined row `[r, hs, hd]`

Column 0 of the 129-wide row is the squared distance, columns 1–64 the source feature, columns 65–128 the target
feature. Stated over any three pieces of these shapes. -/

theorem cat_at_r (r : (⟨S1600000x1, .f32⟩ : BufTy).Contents (Elt Ideal)) (hs hd : (⟨S1600000x64, .f32⟩ : BufTy).Contents (Elt Ideal)) (e : Fin 1600000) :
    concatenate S1600000x129 1 [⟨S1600000x1, r⟩, ⟨S1600000x64, hs⟩, ⟨S1600000x64, hd⟩] concatenates_S1600000x1_S1600000x64_S1600000x64_S1600000x129_d1 (ix2 e (⟨0, by omega⟩ : Fin 129)) = r (ix2 e (⟨0, by omega⟩ : Fin 1)) :=
  concatenate_apply_piece (1 : Fin S1600000x129.rank) _ _ _ 0 (by show (0 : Nat) < 3; decide) S1600000x1 r rfl rfl 0 rfl
    (ix2 e (⟨0, by omega⟩ : Fin 1))
    (fun b => match b with
      | ⟨0, _⟩ => fun _ => rfl
      | ⟨1, _⟩ => fun h => (h (Fin.ext rfl)).elim)
    rfl

theorem cat_at_hs (r : (⟨S1600000x1, .f32⟩ : BufTy).Contents (Elt Ideal)) (hs hd : (⟨S1600000x64, .f32⟩ : BufTy).Contents (Elt Ideal)) (e : Fin 1600000) (k : Fin 64) :
    concatenate S1600000x129 1 [⟨S1600000x1, r⟩, ⟨S1600000x64, hs⟩, ⟨S1600000x64, hd⟩] concatenates_S1600000x1_S1600000x64_S1600000x64_S1600000x129_d1 (ix2 e (⟨k.val + 1, by omega⟩ : Fin 129)) = hs (ix2 e k) :=
  concatenate_apply_piece (1 : Fin S1600000x129.rank) _ _ _ 1 (by show (1 : Nat) < 3; decide) S1600000x64 hs rfl rfl 1 rfl
    (ix2 e k)
    (fun b => match b with
      | ⟨0, _⟩ => fun _ => rfl
      | ⟨1, _⟩ => fun h => (h (Fin.ext rfl)).elim)
    (Nat.add_comm 1 k.val)

theorem cat_at_hd (r : (⟨S1600000x1, .f32⟩ : BufTy).Contents (Elt Ideal)) (hs hd : (⟨S1600000x64, .f32⟩ : BufTy).Contents (Elt Ideal)) (e : Fin 1600000) (k : Fin 64) :
    concatenate S1600000x129 1 [⟨S1600000x1, r⟩, ⟨S1600000x64, hs⟩, ⟨S1600000x64, hd⟩] concatenates_S1600000x1_S1600000x64_S1600000x64_S1600000x129_d1 (ix2 e (⟨k.val + 65, by omega⟩ : Fin 129)) = hd (ix2 e k) :=
  concatenate_apply_piece (1 : Fin S1600000x129.rank) _ _ _ 2 (by show (2 : Nat) < 3; decide) S1600000x64 hd rfl rfl 65 rfl
    (ix2 e k)
    (fun b => match b with
      | ⟨0, _⟩ => fun _ => rfl
      | ⟨1, _⟩ => fun h => (h (Fin.ext rfl)).elim)
    (Nat.add_comm 65 k.val)

/-- The joined row's column 0 is the squared distance. -/
theorem v32_at_r (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (e : Fin 1600000) :
    val_main_v32 (F := Ideal) x0 x1 x2 x3 (ix2 e (⟨0, by omega⟩ : Fin 129))
      = sqDist (row (val_main_v6 (F := Ideal) x0 x2) e) (row (val_main_v13 (F := Ideal) x0 x3) e) :=
  (cat_at_r _ _ _ e).trans (radial_at x0 x2 x3 e ⟨0, by omega⟩)

/-- The joined row's columns 1–64 are the source feature. -/
theorem v32_at_hs (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (e : Fin 1600000) (k : Fin 64) :
    val_main_v32 (F := Ideal) x0 x1 x2 x3 (ix2 e (⟨k.val + 1, by omega⟩ : Fin 129)) = (val_main_v24 (F := Ideal) x1 x2) (ix2 e k) :=
  cat_at_hs _ _ _ e k

/-- The joined row's columns 65–128 are the target feature. -/
theorem v32_at_hd (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (e : Fin 1600000) (k : Fin 64) :
    val_main_v32 (F := Ideal) x0 x1 x2 x3 (ix2 e (⟨k.val + 65, by omega⟩ : Fin 129)) = (val_main_v31 (F := Ideal) x1 x3) (ix2 e k) :=
  cat_at_hd _ _ _ e k

/-! ## The first layer -/

theorem lidx33 (e : Fin 1600000) (j : Fin 64) (k : Fin 129) : lidx_main_v33 (ix2 e j) k = ix2 e k :=
  funext fun a => by match a with | ⟨0, _⟩ => rfl | ⟨1, _⟩ => rfl

theorem ridx33 (e : Fin 1600000) (j : Fin 64) (k : Fin 129) : ridx_main_v33 (ix2 e j) k = ix2 k j :=
  funext fun a => by match a with | ⟨0, _⟩ => rfl | ⟨1, _⟩ => rfl

theorem bias_idx1 (e : Fin 1600000) (j : Fin 64) : idx_main_v34 (idx_main_v35 (ix2 e j)) = ix1 j :=
  funext fun a => by match a with | ⟨0, _⟩ => rfl

/-- The first layer before its activation: the one 129-term product regrouped into the squared distance's term and the
    two feature products, plus the bias. -/
theorem pre1_at (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (e : Fin 1600000) (j : Fin 64) :
    val_main_v36 (F := Ideal) x0 x1 x2 x3 x4 x5 (ix2 e j)
      = sqDist (row (val_main_v6 (F := Ideal) x0 x2) e) (row (val_main_v13 (F := Ideal) x0 x3) e) * row x4 ⟨0, by omega⟩ j
        + ((∑ k : Fin 64, row (val_main_v24 (F := Ideal) x1 x2) e k * rows64 x4 1 (by omega) k j)
          + ∑ k : Fin 64, row (val_main_v31 (F := Ideal) x1 x3) e k * rows64 x4 65 (by omega) k j)
        + vec x5 j := by
  rw [val_main_v36_apply, val_main_v33_apply, val_main_v35_apply, val_main_v34_apply, sum129_split]
  show _ + _ = _
  refine congrArg₂ (· + ·) (congrArg₂ (· + ·) ?_ (congrArg₂ (· + ·) (Finset.sum_congr rfl fun k _ => ?_)
    (Finset.sum_congr rfl fun k _ => ?_))) ?_
  · rw [lidx33, ridx33, v32_at_r]; rfl
  · rw [lidx33, ridx33, v32_at_hs]; rfl
  · rw [lidx33, ridx33, v32_at_hd]; rfl
  · rw [bias_idx1]; rfl

/-! ## `silu` as the reference spells it -/

/-- `x · (1 / (1 + exp (-x)))`, with the binary32 word of one for both ones, is `x · logistic x`. -/
theorem host_silu (x : Ideal .f32) :
    FloatOps.mulf x (FloatOps.hostDivf (FloatOps.ofBits .f32 0x3F800000#32)
      (FloatOps.addf (FloatOps.ofBits .f32 0x3F800000#32) (FloatOps.hostUnary .exp (FloatOps.hostNegf x)))) = silu x := by
  show x * Ideal.div (Ideal.ofBits .f32 0x3F800000#32) (Ideal.ofBits .f32 0x3F800000#32 + Ideal.exp (-x)) = x * Ideal.logistic x
  rw [Ideal.ofBits_one_f32]
  rfl

/-- The first activation is `silu` of the first pre-activation, at every index. -/
theorem v37_silu (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (i : S1600000x64.Idx) :
    val_main_v37 (F := Ideal) x0 x1 x2 x3 x4 x5 i = silu (val_main_v36 (F := Ideal) x0 x1 x2 x3 x4 x5 i) := by
  rw [val_main_v37_apply, val_main_call0_v5_apply, val_main_call0_v4_apply, val_main_call0_cst_0_apply,
    val_main_call0_v3_apply, val_main_call0_v2_apply, val_main_call0_cst_apply, val_main_call0_v1_apply,
    val_main_call0_v0_apply]
  exact host_silu _

/-- The first hidden layer. -/
theorem hidden1_at (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (e : Fin 1600000) (j : Fin 64) :
    val_main_v37 (F := Ideal) x0 x1 x2 x3 x4 x5 (ix2 e j)
      = hidden1 (sqDist (row (val_main_v6 (F := Ideal) x0 x2) e) (row (val_main_v13 (F := Ideal) x0 x3) e)) (row (val_main_v24 (F := Ideal) x1 x2) e) (row (val_main_v31 (F := Ideal) x1 x3) e)
        (row x4 ⟨0, by omega⟩) (rows64 x4 1 (by omega)) (rows64 x4 65 (by omega)) (vec x5) j := by
  rw [v37_silu, pre1_at]
  rfl

/-! ## The second layer: the edge feature -/

theorem lidx38 (e : Fin 1600000) (j : Fin 64) (k : Fin 64) : lidx_main_v38 (ix2 e j) k = ix2 e k :=
  funext fun a => by match a with | ⟨0, _⟩ => rfl | ⟨1, _⟩ => rfl

theorem ridx38 (e : Fin 1600000) (j : Fin 64) (k : Fin 64) : ridx_main_v38 (ix2 e j) k = ix2 k j :=
  funext fun a => by match a with | ⟨0, _⟩ => rfl | ⟨1, _⟩ => rfl

theorem bias_idx2 (e : Fin 1600000) (j : Fin 64) : idx_main_v39 (idx_main_v40 (ix2 e j)) = ix1 j :=
  funext fun a => by match a with | ⟨0, _⟩ => rfl

/-- The second activation is `silu` of the second pre-activation, at every index. -/
theorem v42_silu (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (i : S1600000x64.Idx) :
    val_main_v42 (F := Ideal) x0 x1 x2 x3 x4 x5 x6 x7 i = silu (val_main_v41 (F := Ideal) x0 x1 x2 x3 x4 x5 x6 x7 i) := by
  rw [val_main_v42_apply, val_main_call1_v5_apply, val_main_call1_v4_apply, val_main_call1_cst_0_apply,
    val_main_call1_v3_apply, val_main_call1_v2_apply, val_main_call1_cst_apply, val_main_call1_v1_apply,
    val_main_call1_v0_apply]
  exact host_silu _

/-- The edge feature at an edge and a unit. -/
theorem feat_at (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (e : Fin 1600000) (j : Fin 64) :
    val_main_v42 (F := Ideal) x0 x1 x2 x3 x4 x5 x6 x7 (ix2 e j)
      = feat (row (val_main_v6 (F := Ideal) x0 x2) e) (row (val_main_v13 (F := Ideal) x0 x3) e) (row (val_main_v24 (F := Ideal) x1 x2) e) (row (val_main_v31 (F := Ideal) x1 x3) e)
        (row x4 ⟨0, by omega⟩) (rows64 x4 1 (by omega)) (rows64 x4 65 (by omega)) (vec x5) (mat x6) (vec x7) j := by
  rw [v42_silu, val_main_v41_apply, val_main_v38_apply, val_main_v40_apply, val_main_v39_apply, bias_idx2]
  unfold feat dense
  refine congrArg silu (congrArg₂ (· + ·) (Finset.sum_congr rfl fun k _ => ?_) rfl)
  rw [lidx38, ridx38, hidden1_at]
  rfl

theorem feat_eq (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v42 (F := Ideal) x0 x1 x2 x3 x4 x5 x6 x7
      = Gfeat (val_main_v6 (F := Ideal) x0 x2) (val_main_v13 (F := Ideal) x0 x3) (val_main_v24 (F := Ideal) x1 x2) (val_main_v31 (F := Ideal) x1 x3) x4 x5 x6 x7 := by
  funext i
  obtain ⟨e, j, rfl⟩ : ∃ (e : Fin 1600000) (j : Fin 64), i = ix2 e j := ⟨i 0, i 1, eq_ix2 i⟩
  exact feat_at x0 x1 x2 x3 x4 x5 x6 x7 e j

/-! ## The third layer, the gain, and the coordinate shift -/

theorem lidx48 (e : Fin 1600000) (j : Fin 64) (k : Fin 64) : lidx_main_v48 (ix2 e j) k = ix2 e k :=
  funext fun a => by match a with | ⟨0, _⟩ => rfl | ⟨1, _⟩ => rfl

theorem ridx48 (e : Fin 1600000) (j : Fin 64) (k : Fin 64) : ridx_main_v48 (ix2 e j) k = ix2 k j :=
  funext fun a => by match a with | ⟨0, _⟩ => rfl | ⟨1, _⟩ => rfl

theorem bias_idx3 (e : Fin 1600000) (j : Fin 64) : idx_main_v49 (idx_main_v50 (ix2 e j)) = ix1 j :=
  funext fun a => by match a with | ⟨0, _⟩ => rfl

/-- The third activation is `silu` of the third pre-activation, at every index. -/
theorem v52_silu (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (i : S1600000x64.Idx) :
    val_main_v52 (F := Ideal) x0 x1 x2 x3 x4 x5 x6 x7 x8 x9 i
      = silu (val_main_v51 (F := Ideal) x0 x1 x2 x3 x4 x5 x6 x7 x8 x9 i) := by
  rw [val_main_v52_apply, val_main_call2_v5_apply, val_main_call2_v4_apply, val_main_call2_cst_0_apply,
    val_main_call2_v3_apply, val_main_call2_v2_apply, val_main_call2_cst_apply, val_main_call2_v1_apply,
    val_main_call2_v0_apply]
  exact host_silu _

/-- The third layer at an edge and a unit: a dense layer on the edge feature. -/
theorem dense3_at (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (e : Fin 1600000) (j : Fin 64) :
    val_main_v52 (F := Ideal) x0 x1 x2 x3 x4 x5 x6 x7 x8 x9 (ix2 e j)
      = dense (feat (row (val_main_v6 (F := Ideal) x0 x2) e) (row (val_main_v13 (F := Ideal) x0 x3) e) (row (val_main_v24 (F := Ideal) x1 x2) e) (row (val_main_v31 (F := Ideal) x1 x3) e)
        (row x4 ⟨0, by omega⟩) (rows64 x4 1 (by omega)) (rows64 x4 65 (by omega)) (vec x5) (mat x6) (vec x7)) (mat x8) (vec x9) j := by
  rw [v52_silu, val_main_v51_apply, val_main_v48_apply, val_main_v50_apply, val_main_v49_apply, bias_idx3]
  unfold dense
  refine congrArg silu (congrArg₂ (· + ·) (Finset.sum_congr rfl fun k _ => ?_) rfl)
  rw [lidx48, ridx48, feat_at]
  rfl

theorem lidx53 (e : Fin 1600000) (z : Fin 1) (k : Fin 64) : lidx_main_v53 (ix2 e z) k = ix2 e k :=
  funext fun a => by match a with | ⟨0, _⟩ => rfl | ⟨1, _⟩ => rfl

theorem ridx53 (e : Fin 1600000) (z : Fin 1) (k : Fin 64) : ridx_main_v53 (ix2 e z) k = ix2 k z :=
  funext fun a => by match a with | ⟨0, _⟩ => rfl | ⟨1, _⟩ => rfl

/-- The gain at an edge: `tanh` of the third layer's product with the last weight column. -/
theorem gain_at (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x1, .f32⟩ : BufTy).Contents (Elt Ideal)) (e : Fin 1600000) :
    val_main_v54 (F := Ideal) x0 x1 x2 x3 x4 x5 x6 x7 x8 x9 x10 (ix2 e (⟨0, Nat.one_pos⟩ : Fin 1))
      = gain (dense (feat (row (val_main_v6 (F := Ideal) x0 x2) e) (row (val_main_v13 (F := Ideal) x0 x3) e) (row (val_main_v24 (F := Ideal) x1 x2) e) (row (val_main_v31 (F := Ideal) x1 x3) e)
        (row x4 ⟨0, by omega⟩) (rows64 x4 1 (by omega)) (rows64 x4 65 (by omega)) (vec x5) (mat x6) (vec x7)) (mat x8) (vec x9)) (fun k => x10 (ix2 k ⟨0, by omega⟩)) := by
  rw [val_main_v54_apply, val_main_v53_apply, Ideal.hostUnary_tanh_def]
  unfold gain
  refine congrArg Ideal.tanh (Finset.sum_congr rfl fun k _ => ?_)
  rw [lidx53, ridx53, dense3_at]

theorem idx46 (e : Fin 1600000) (k : Fin 3) : idx_main_v46 (ix2 e k) = ix2 e (⟨0, Nat.one_pos⟩ : Fin 1) :=
  funext fun a => by match a with | ⟨0, _⟩ => rfl | ⟨1, _⟩ => rfl

theorem idx55 (e : Fin 1600000) (k : Fin 3) : idx_main_v55 (ix2 e k) = ix2 e (⟨0, Nat.one_pos⟩ : Fin 1) :=
  funext fun a => by match a with | ⟨0, _⟩ => rfl | ⟨1, _⟩ => rfl

/-- The normalized difference along axis `k`: the coordinate difference over the distance plus the small constant. -/
theorem unit_at (x0 : (⟨S50000x3, .f32⟩ : BufTy).Contents (Elt Ideal)) (x2 x3 : (⟨S1600000, .i32⟩ : BufTy).Contents (Elt Ideal)) (e : Fin 1600000) (k : Fin 3) :
    val_main_v47 (F := Ideal) x0 x2 x3 (ix2 e k)
      = Ideal.div (row (val_main_v6 (F := Ideal) x0 x2) e k - row (val_main_v13 (F := Ideal) x0 x3) e k)
          (Ideal.sqrt (sqDist (row (val_main_v6 (F := Ideal) x0 x2) e) (row (val_main_v13 (F := Ideal) x0 x3) e)) + eps) := by
  rw [val_main_v47_apply, val_main_v14_apply, val_main_v46_apply, idx46, val_main_v45_apply, val_main_v43_apply,
    val_main_v44_apply, val_main_cst_7_apply, radial_at]
  rfl

/-- The coordinate shift at an edge and an axis. -/
theorem shift_at (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x1, .f32⟩ : BufTy).Contents (Elt Ideal)) (e : Fin 1600000) (k : Fin 3) :
    val_main_v56 (F := Ideal) x0 x1 x2 x3 x4 x5 x6 x7 x8 x9 x10 (ix2 e k)
      = shift (row (val_main_v6 (F := Ideal) x0 x2) e) (row (val_main_v13 (F := Ideal) x0 x3) e) (row (val_main_v24 (F := Ideal) x1 x2) e) (row (val_main_v31 (F := Ideal) x1 x3) e)
        (row x4 ⟨0, by omega⟩) (rows64 x4 1 (by omega)) (rows64 x4 65 (by omega)) (vec x5) (mat x6) (vec x7) (mat x8) (vec x9) (fun k => x10 (ix2 k ⟨0, by omega⟩)) eps k := by
  rw [val_main_v56_apply, val_main_v55_apply, idx55, unit_at, gain_at]
  rfl

theorem shift_eq (x0 : (⟨S50000x3, .f32⟩ : BufTy).Contents (Elt Ideal)) (x1 : (⟨S50000x64, .f32⟩ : BufTy).Contents (Elt Ideal)) (x2 x3 : (⟨S1600000, .i32⟩ : BufTy).Contents (Elt Ideal)) (x4 : (⟨S129x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x1, .f32⟩ : BufTy).Contents (Elt Ideal)) :
    val_main_v56 (F := Ideal) x0 x1 x2 x3 x4 x5 x6 x7 x8 x9 x10
      = Gshift (val_main_v6 (F := Ideal) x0 x2) (val_main_v13 (F := Ideal) x0 x3) (val_main_v24 (F := Ideal) x1 x2) (val_main_v31 (F := Ideal) x1 x3) x4 x5 x6 x7 x8 x9 x10 := by
  funext i
  obtain ⟨e, k, rfl⟩ : ∃ (e : Fin 1600000) (k : Fin 3), i = ix2 e k := ⟨i 0, i 1, eq_ix2 i⟩
  exact shift_at x0 x1 x2 x3 x4 x5 x6 x7 x8 x9 x10 e k

end Cert.ReferenceIdeal.RefValue

end
-- ==== Proof.Bridge.lean ====
/-
  The four per-edge arrays are the same in both programs.

  Both programs bring the endpoint coordinates and endpoint features of every edge together by the same gather of the
  same index arrays (negative indices wrapped by the table's length first). The kernel's host side rounds the feature
  table to bfloat16 before gathering; on the extended reals a change of float format is the identity, so the gathered
  arrays are equal element by element, and in fact by unfolding.
-/
import proofs.«170885_j15135464751165_2_alg».proof.Proof.Gen.KernelIdeal.Frame
import proofs.«170885_j15135464751165_2_alg».proof.Proof.Gen.ReferenceIdeal.Read
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The source endpoints' coordinates, per edge. -/
theorem xs_eq (c : Dev nD) :
    (V m c main_v6 : S1600000x3.Idx → EReal)
      = Cert.ReferenceIdeal.Read.val_main_v6 (F := Ideal) (m ((c : Thread nD τ).loc main_arg0)) (m ((c : Thread nD τ).loc main_arg2)) := by
  dsimp only [Gen.V, Gen.hostOps0]
  after_results
  rfl

set_option maxHeartbeats 4000000 in
/-- The target endpoints' coordinates, per edge. -/
theorem xd_eq (c : Dev nD) :
    (V m c main_v13 : S1600000x3.Idx → EReal)
      = Cert.ReferenceIdeal.Read.val_main_v13 (F := Ideal) (m ((c : Thread nD τ).loc main_arg0)) (m ((c : Thread nD τ).loc main_arg3)) := by
  dsimp only [Gen.V, Gen.hostOps0]
  after_results
  rfl

set_option maxHeartbeats 4000000 in
/-- The source endpoints' features, per edge. -/
theorem hs_eq (c : Dev nD) :
    (V m c main_v21 : S1600000x64.Idx → EReal)
      = Cert.ReferenceIdeal.Read.val_main_v24 (F := Ideal) (m ((c : Thread nD τ).loc main_arg1)) (m ((c : Thread nD τ).loc main_arg2)) := by
  dsimp only [Gen.V, Gen.hostOps0]
  after_results
  rfl

set_option maxHeartbeats 8000000 in
/-- The target endpoints' features, per edge. -/
theorem hd_eq (c : Dev nD) :
    (V m c main_v28 : S1600000x64.Idx → EReal)
      = Cert.ReferenceIdeal.Read.val_main_v31 (F := Ideal) (m ((c : Thread nD τ).loc main_arg1)) (m ((c : Thread nD τ).loc main_arg3)) := by
  dsimp only [Gen.V, Gen.hostOps0]
  after_results
  rfl

end Cert.Bridge

end
-- ==== Proof.lean ====
/-
  An edge network on a graph of 1 600 000 edges: a tiled kernel against a plain array program.

  For every edge both programs gather the endpoints' coordinates and features, take the squared distance `r` of the
  endpoints, and run a small network: a first layer on `[r, hs, hd]`, a second layer giving the edge feature, a third
  layer and a one-column product giving, through `tanh`, a scalar gain that scales the difference of the coordinates
  normalized by `√r + ε`. The kernel works on 500 tiles of 3200 edges and splits the first layer's product into the
  squared distance's row and the two 64-row blocks of the weight matrix; the array program joins `[r, hs, hd]` into one
  129-wide row and takes one product with the whole matrix. On the extended reals — every operation exact, a change of
  float format the identity, `logistic x = 1 / (1 + exp (-x))` on both sides — the two are one function
  (`Proof/EdgeSpec.lean`): a 129-term sum is its first term plus two 64-term sums, a regrouping that holds in any
  commutative monoid, so the precondition is never opened.
  `Proof/KernelRows.lean` reads the kernel body's three stored values at an index; `Proof/KernelArrays.lean` goes from
  the 500 blocks to the three whole arrays; `Proof/RefValue.lean` reads the array program's three results at an index;
  `Proof/Bridge.lean` identifies the four gathered per-edge arrays of the two programs. Below, the three frames (the two
  kernels' generated whole, the array program's from its run), the empty idealization ledger, and the two runs side by
  side.
-/
import proofs.«170885_j15135464751165_2_alg».proof.Defs
import proofs.«170885_j15135464751165_2_alg».proof.Proof.Gen.Kernel
import proofs.«170885_j15135464751165_2_alg».proof.Proof.Gen.Kernel.Skeleton
import proofs.«170885_j15135464751165_2_alg».proof.Proof.Gen.Kernel.Launch
import proofs.«170885_j15135464751165_2_alg».proof.Proof.Gen.Kernel.Points
import proofs.«170885_j15135464751165_2_alg».proof.Proof.Gen.Kernel.Frame
import proofs.«170885_j15135464751165_2_alg».proof.Proof.Gen.KernelIdeal
import proofs.«170885_j15135464751165_2_alg».proof.Proof.Gen.KernelIdeal.Skeleton
import proofs.«170885_j15135464751165_2_alg».proof.Proof.Gen.KernelIdeal.Launch
import proofs.«170885_j15135464751165_2_alg».proof.Proof.Gen.KernelIdeal.Points
import proofs.«170885_j15135464751165_2_alg».proof.Proof.Gen.KernelIdeal.Frame
import proofs.«170885_j15135464751165_2_alg».proof.Proof.Gen.ReferenceIdeal
import proofs.«170885_j15135464751165_2_alg».proof.Proof.Gen.Pre_finite_inputs
import proofs.«170885_j15135464751165_2_alg».proof.Proof.Gen.KernelIdeal.Value
import proofs.«170885_j15135464751165_2_alg».proof.Proof.Gen.ReferenceIdeal.Run
import proofs.«170885_j15135464751165_2_alg».proof.Proof.Gen.ReferenceIdeal.Read
import proofs.«170885_j15135464751165_2_alg».proof.Proof.EdgeSpec
import proofs.«170885_j15135464751165_2_alg».proof.Proof.KernelRows
import proofs.«170885_j15135464751165_2_alg».proof.Proof.KernelArrays
import proofs.«170885_j15135464751165_2_alg».proof.Proof.RefValue
import proofs.«170885_j15135464751165_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs end with the squared distance, the coordinate shift and the edge feature of every edge, as the one
    specification gives them from the same four per-edge arrays and the same weights. -/
theorem algebraic : Cert.algebraic_KernelIdeal_ReferenceIdeal := by
  intro m ρ m' ρ' _ hagree
  refine ⟨fun c => Cert.EdgeSpec.Gradial (Cert.KernelIdeal.Gen.V m c Cert.KernelIdeal.main_v6) (Cert.KernelIdeal.Gen.V m c Cert.KernelIdeal.main_v13), fun c => Cert.EdgeSpec.Gshift (Cert.KernelIdeal.Gen.V m c Cert.KernelIdeal.main_v6) (Cert.KernelIdeal.Gen.V m c Cert.KernelIdeal.main_v13) (Cert.KernelIdeal.Gen.V m c Cert.KernelIdeal.main_v21) (Cert.KernelIdeal.Gen.V m c Cert.KernelIdeal.main_v28) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), fun c => Cert.EdgeSpec.Gfeat (Cert.KernelIdeal.Gen.V m c Cert.KernelIdeal.main_v6) (Cert.KernelIdeal.Gen.V m c Cert.KernelIdeal.main_v13) (Cert.KernelIdeal.Gen.V m c Cert.KernelIdeal.main_v21) (Cert.KernelIdeal.Gen.V m c Cert.KernelIdeal.main_v28) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Arrays.run m ρ, ?_⟩
  refine (θ_run Cert.ReferenceIdeal.defs _ _).mono (fun _ h c => ⟨?_, ?_, ?_, (h c).2.2.2⟩)
    (Cert.ReferenceIdeal.Value.run (F := Ideal) m' ρ')
  · refine (h c).1.trans ((Cert.ReferenceIdeal.Read.val_main_v17_eq _ _ _).trans ?_)
    rw [Cert.ReferenceIdeal.RefValue.radial_eq, (hagree c).1, (hagree c).2.2.1, (hagree c).2.2.2.1,
      ← Cert.Bridge.xs_eq m c, ← Cert.Bridge.xd_eq m c]
  · refine (h c).2.1.trans ((Cert.ReferenceIdeal.Read.val_main_v56_eq m' c).trans ?_)
    rw [Cert.ReferenceIdeal.RefValue.shift_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2,
      ← Cert.Bridge.xs_eq m c, ← Cert.Bridge.xd_eq m c, ← Cert.Bridge.hs_eq m c, ← Cert.Bridge.hd_eq m c]
  · refine (h c).2.2.1.trans ((Cert.ReferenceIdeal.Read.val_main_v42_eq m' c).trans ?_)
    rw [Cert.ReferenceIdeal.RefValue.feat_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      ← Cert.Bridge.xs_eq m c, ← Cert.Bridge.xd_eq m c, ← Cert.Bridge.hs_eq m c, ← Cert.Bridge.hd_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
